-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000x64 : Shape := ⟨2, ![1200000, 64]⟩
abbrev S1200000 : Shape := ⟨1, ![1200000]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000x64 : S_.BroadcastsInDim S1200000x64 (![] : Fin 0 → Fin S1200000x64.rank)
  reducesTo_S1200000x64_S_d0_1 : S1200000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : FVec F S1200000x64 .f32) (main_arg2 : IVec S1200000 32) (main_arg3 : IVec S1200000 32) (main_arg4 : FVec F S128x64 .f32) (main_arg5 : FVec F S64 .f32) (main_arg6 : FVec F S128x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000x64 .f32 := Host.absf main_arg1
  let main_cst_0 : FVec F S_ .f32 := constant S_ .f32 0x7F800000#32
  let main_v5 : FVec F S1200000x64 .f32 := broadcastInDim S1200000x64 ![] bcast_S_S1200000x64 main_cst_0
  let main_v6 : IVec S1200000x64 1 := cmpf .olt main_v4 main_v5
  let main_c_1 : IVec S_ 1 := constantI S_ 1 1#1
  let main_v7 : IVec S_ 1 := (fun x v => Host.reduce IntOp.andi x v reducesTo_S1200000x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x64 : Shape := ⟨2, ![100000, 64]⟩
abbrev S1200000x64 : Shape := ⟨2, ![1200000, 64]⟩
abbrev S1200000 : Shape := ⟨1, ![1200000]⟩
abbrev S128x64 : Shape := ⟨2, ![128, 64]⟩
abbrev S64 : Shape := ⟨1, ![64]⟩
abbrev S_ : Shape := ⟨0, ![]⟩
abbrev S1200000x1 : Shape := ⟨2, ![1200000, 1]⟩
abbrev S64x64 : Shape := ⟨2, ![64, 64]⟩
abbrev S10000x64 : Shape := ⟨2, ![10000, 64]⟩
abbrev S1x64 : Shape := ⟨2, ![1, 64]⟩
abbrev S100000 : Shape := ⟨1, ![100000]⟩
abbrev S100000x1 : Shape := ⟨2, ![100000, 1]⟩
abbrev S5000x64 : Shape := ⟨2, ![5000, 64]⟩
abbrev S5000x1 : Shape := ⟨2, ![5000, 1]⟩

abbrev nBuf : Space → Nat
  | .hbm => 49
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S1200000x64, .f32⟩
  | .hbm, ⟨2, _⟩ => ⟨S1200000, .i32⟩
  | .hbm, ⟨3, _⟩ => ⟨S1200000, .i32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000x64, .bf16⟩
  | .hbm, ⟨9, _⟩ => ⟨S_, .i32⟩
  | .hbm, ⟨10, _⟩ => ⟨S1200000, .i32⟩
  | .hbm, ⟨11, _⟩ => ⟨S1200000, .i1⟩
  | .hbm, ⟨12, _⟩ => ⟨S_, .i32⟩
  | .hbm, ⟨13, _⟩ => ⟨S1200000, .i32⟩
  | .hbm, ⟨14, _⟩ => ⟨S1200000, .i32⟩
  | .hbm, ⟨15, _⟩ => ⟨S1200000, .i32⟩
  | .hbm, ⟨16, _⟩ => ⟨S1200000x1, .i32⟩
  | .hbm, ⟨17, _⟩ => ⟨S1200000x64, .bf16⟩
  | .hbm, ⟨18, _⟩ => ⟨S64x64, .f32⟩
  | .hbm, ⟨19, _⟩ => ⟨S64x64, .f32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S_, .i32⟩
  | .hbm, ⟨26, _⟩ => ⟨S1200000, .i32⟩
  | .hbm, ⟨27, _⟩ => ⟨S_, .i32⟩
  | .hbm, ⟨28, _⟩ => ⟨S100000, .i32⟩
  | .hbm, ⟨29, _⟩ => ⟨S1200000x1, .i32⟩
  | .hbm, ⟨30, _⟩ => ⟨S100000, .i32⟩
  | .hbm, ⟨31, _⟩ => ⟨S100000, .f32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .i1⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S_, .f32⟩
  | .hbm, ⟨40, _⟩ => ⟨S100000x1, .f32⟩
  | .hbm, ⟨41, _⟩ => ⟨S100000x1, .f32⟩
  | .hbm, ⟨42, _⟩ => ⟨S_, .f32⟩
  | .hbm, ⟨43, _⟩ => ⟨S_, .f32⟩
  | .hbm, ⟨44, _⟩ => ⟨S100000x1, .f32⟩
  | .hbm, ⟨45, _⟩ => ⟨S100000x1, .f32⟩
  | .hbm, ⟨46, _⟩ => ⟨S64x64, .f32⟩
  | .hbm, ⟨47, _⟩ => ⟨S64x64, .f32⟩
  | .hbm, ⟨48, _⟩ => ⟨S100000x64, .f32⟩
  | .local _ .vmem, ⟨0, _⟩ => ⟨S10000x64, .bf16⟩
  | .local _ .vmem, ⟨1, _⟩ => ⟨S10000x64, .bf16⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S64, .f32⟩
  | .local _ .vmem, ⟨7, _⟩ => ⟨S10000x64, .f32⟩
  | .local _ .vmem, ⟨8, _⟩ => ⟨S10000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S64x64, .f32⟩
  | .local _ .vmem, ⟨16, _⟩ => ⟨S64x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_call0_v0 : Ref sig .tc := ⟨.hbm, 43, rfl⟩
abbrev main_call0_v1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![120], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  bcast_S_S1200000 : S_.BroadcastsInDim S1200000 (![] : Fin 0 → Fin S1200000.rank)
  bcast_S1200000_S1200000x1_0 : S1200000.BroadcastsInDim S1200000x1 (![0] : Fin 1 → Fin S1200000x1.rank)
  slices_S128x64_S64x64_0_0 : S128x64.Slices ![0, 0] S64x64
  slices_S128x64_S64x64_64_0 : S128x64.Slices ![64, 0] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  bcast_S_S100000x1 : S_.BroadcastsInDim S100000x1 (![] : Fin 0 → Fin S100000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  broadcasts_S1x64_S5000x64 : S1x64.Broadcasts S5000x64
  gather_S100000x64_S1200000x1_S1200000x64_1_0_n_n_0_1_164_wf : GatherDims.WF S100000x64 S1200000x1 S1200000x64 [1] [0] [] [0] [] 1 ![1, 64]
  dot_S10000x64_S64x64_S10000x64_1_0_0_1_n_n_wf : DotDims.WF S10000x64 S64x64 S10000x64 [1] [0] [0] [1] [] []
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1200000x64.size a
  hwx0_0 : ∀ i : grid0.Coords, EltTy.bits .bf16 = 32 ∨ (Rect.block (s := S1200000x64) S10000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S1200000x64.size a
  hwx0_1 : ∀ i : grid0.Coords, EltTy.bits .f32 = 32 ∨ (Rect.block (s := S1200000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S1200000x64.size a
  hwx0_5 : ∀ i : grid0.Coords, EltTy.bits .f32 = 32 ∨ (Rect.block (s := S1200000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v7) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S1200000x64 : Shape := ⟨2, ![1200000, 64]⟩
abbrev S1200000 : Shape := ⟨1, ![1200000]⟩
abbrev S128x64 : Shape := ⟨2, ![128, 64]⟩
abbrev S64 : Shape := ⟨1, ![64]⟩
abbrev S_ : Shape := ⟨0, ![]⟩
abbrev S1200000x1 : Shape := ⟨2, ![1200000, 1]⟩
abbrev S1200000x128 : Shape := ⟨2, ![1200000, 128]⟩
abbrev S1x64 : Shape := ⟨2, ![1, 64]⟩
abbrev S100000x1 : Shape := ⟨2, ![100000, 1]⟩
abbrev S100000x128 : Shape := ⟨2, ![100000, 128]⟩

abbrev nBuf : Space → Nat
  | .hbm => 53
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000x64, .f32⟩
  | .hbm, ⟨2, _⟩ => ⟨S1200000, .i32⟩
  | .hbm, ⟨3, _⟩ => ⟨S1200000, .i32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S1200000, .i32⟩
  | .hbm, ⟨10, _⟩ => ⟨S1200000, .i1⟩
  | .hbm, ⟨11, _⟩ => ⟨S_, .i32⟩
  | .hbm, ⟨12, _⟩ => ⟨S1200000, .i32⟩
  | .hbm, ⟨13, _⟩ => ⟨S1200000, .i32⟩
  | .hbm, ⟨14, _⟩ => ⟨S1200000, .i32⟩
  | .hbm, ⟨15, _⟩ => ⟨S1200000x1, .i32⟩
  | .hbm, ⟨16, _⟩ => ⟨S1200000x64, .f32⟩
  | .hbm, ⟨17, _⟩ => ⟨S1200000x128, .f32⟩
  | .hbm, ⟨18, _⟩ => ⟨S1200000x64, .f32⟩
  | .hbm, ⟨19, _⟩ => ⟨S1x64, .f32⟩
  | .hbm, ⟨20, _⟩ => ⟨S1200000x64, .f32⟩
  | .hbm, ⟨21, _⟩ => ⟨S1200000x64, .f32⟩
  | .hbm, ⟨22, _⟩ => ⟨S_, .f32⟩
  | .hbm, ⟨23, _⟩ => ⟨S100000x64, .f32⟩
  | .hbm, ⟨24, _⟩ => ⟨S1200000x1, .i32⟩
  | .hbm, ⟨25, _⟩ => ⟨S100000x64, .f32⟩
  | .hbm, ⟨26, _⟩ => ⟨S_, .f32⟩
  | .hbm, ⟨27, _⟩ => ⟨S1200000x1, .f32⟩
  | .hbm, ⟨28, _⟩ => ⟨S_, .f32⟩
  | .hbm, ⟨29, _⟩ => ⟨S100000x1, .f32⟩
  | .hbm, ⟨30, _⟩ => ⟨S1200000x1, .i32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .i1⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S_, .f32⟩
  | .hbm, ⟨42, _⟩ => ⟨S100000x64, .i1⟩
  | .hbm, ⟨43, _⟩ => ⟨S100000x64, .f32⟩
  | .hbm, ⟨44, _⟩ => ⟨S100000x64, .f32⟩
  | .hbm, ⟨45, _⟩ => ⟨S100000x128, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_cst : Ref sig .tc := ⟨.hbm, 50, rfl⟩
abbrev main_call1_v0 : Ref sig .tc := ⟨.hbm, 51, rfl⟩
abbrev main_v31 : Ref sig .tc := ⟨.hbm, 52, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  concatenates_S1200000x64_S1200000x64_S1200000x128_d1 : Shape.Concatenates [S1200000x64, S1200000x64] S1200000x128 1
  bcast_S64_S1x64_1 : S64.BroadcastsInDim S1x64 (![1] : Fin 1 → Fin S1x64.rank)
  bcast_S1x64_S1200000x64_0_1 : S1x64.BroadcastsInDim S1200000x64 (![0, 1] : Fin 2 → Fin S1200000x64.rank)
  bcast_S_S100000x64 : S_.BroadcastsInDim S100000x64 (![] : Fin 0 → Fin S100000x64.rank)
  bcast_S_S1200000x1 : S_.BroadcastsInDim S1200000x1 (![] : Fin 0 → Fin S1200000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  dot_S1200000x128_S128x64_S1200000x64_1_0_0_1_n_n_wf : DotDims.WF S1200000x128 S128x64 S1200000x64 [1] [0] [0] [1] [] []
  scatter_S100000x64_S1200000x1_S1200000x64_1_0_0_1_wf : ScatterDims.WF S100000x64 S1200000x1 S1200000x64 [1] [0] [0] 1
  scatter_S100000x1_S1200000x1_S1200000x1_1_0_0_1_wf : ScatterDims.WF S100000x1 S1200000x1 S1200000x1 [1] [0] [0] 1
  dot_S100000x128_S128x64_S100000x64_1_0_0_1_n_n_wf : DotDims.WF S100000x128 S128x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S1200000x128_S128x64_S1200000x64_1_0_0_1_n_n : DotDims S1200000x128 S128x64 S1200000x64 where
  lhsContracting := [1]
  rhsContracting := [0]
  lhsNonContracting := [0]
  rhsNonContracting := [1]
  lhsBatch := []
  rhsBatch := []
  wf := dot_S1200000x128_S128x64_S1200000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel's run, with its result named.

  @main is two grid regions among stretches of host operations. The buffer contents at each boundary are a fold
  from the launch memory: a stretch applies its operations, a region replaces each of its windows' arrays by what
  its write-backs leave and keeps every other buffer. Every weakly fair execution terminates in a state whose
  unscoped buffers hold the last stage of that fold; read at the result buffer this gives the result, read at an
  argument it gives the launch contents.
-/
import proofs.«100682_j6528350290008_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last stage of
    the fold and every argument as launched. -/
theorem run_named : θ_run defs (onTc (τ := τ) (main (F := F))) ⟨m, fun _ => 0, ρ⟩ (fun r => ∀ c : Dev nD,
      r.2.mem ((c.tc : Thread nD τ).loc main_v29) = W6 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v29 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

/-- The result buffer's last stage is what the second region's write-backs leave in its output window's array. -/
theorem W6_result (c : Dev nD) : W6 m ρ c (Proc.devRef .tc main_v29) = (dat1 (V5 m ρ) c).arrAt 6 cfg1.N :=
  W6_arr m ρ c 6

end Cert.KernelIdeal.KRun

end
-- ==== Proof.Contract.lean ====
import proofs.«100682_j6528350290008_2_alg».proof.KernelIdeal
import proofs.«100682_j6528350290008_2_alg».proof.ReferenceIdeal
import Idealize.ShloMosaic.PureOps.Ideal.Laws
import Idealize.ShloMosaic.Lib.ValueIdx
import Idealize.ShloMosaic.Lib.Pipeline.Value

/-! The matrix products of the two programs, and the slices and concatenations around them, read at an index.

Everything is at the ideal values: a float is an extended real, `*` and `+` are the extended reals', and a matrix
product read at an output index is the exact finite sum over the contraction coordinate. Each lemma is stated over
variables of the literal vector types, at an index given by its two coordinates. -/

noncomputable section

namespace Cert.Contract

open Idealize.ShloMosaic

/-! ## The kernel's two matrix products at an index -/

section Kernel
variable [Cert.KernelIdeal.Facts₀]

/-- The left operand's index: row the output's row, column the contraction coordinate. -/
theorem k10000_lhs_0 (i : Cert.KernelIdeal.S10000x64.Idx) (c : Cert.KernelIdeal.dot_S10000x64_S64x64_S10000x64_1_0_0_1_n_n.contr.Idx) :
    (Cert.KernelIdeal.dot_S10000x64_S64x64_S10000x64_1_0_0_1_n_n.lhsIdx i c 0).val = (i 0).val := by
  unfold DotDims.lhsIdx
  rw [dif_neg (show ¬(0 : Fin Cert.KernelIdeal.S10000x64.rank) ∈ Cert.KernelIdeal.dot_S10000x64_S64x64_S10000x64_1_0_0_1_n_n.lhsBatch by
        show ¬(0 : Fin Cert.KernelIdeal.S10000x64.rank) ∈ ([] : List (Fin Cert.KernelIdeal.S10000x64.rank)); decide),
    dif_pos (show (0 : Fin Cert.KernelIdeal.S10000x64.rank) ∈ Cert.KernelIdeal.dot_S10000x64_S64x64_S10000x64_1_0_0_1_n_n.lhsNonContracting by
        show (0 : Fin Cert.KernelIdeal.S10000x64.rank) ∈ ([0] : List (Fin Cert.KernelIdeal.S10000x64.rank)); decide)]
  rfl
theorem k10000_lhs_1 (i : Cert.KernelIdeal.S10000x64.Idx) (c : Cert.KernelIdeal.dot_S10000x64_S64x64_S10000x64_1_0_0_1_n_n.contr.Idx) :
    (Cert.KernelIdeal.dot_S10000x64_S64x64_S10000x64_1_0_0_1_n_n.lhsIdx i c 1).val = (c ⟨0, Nat.one_pos⟩).val :=
  Cert.KernelIdeal.dot_S10000x64_S64x64_S10000x64_1_0_0_1_n_n.lhsIdx_val_of_single rfl i c
/-- The right operand's index: row the contraction coordinate, column the output's column. -/
theorem k10000_rhs_0 (i : Cert.KernelIdeal.S10000x64.Idx) (c : Cert.KernelIdeal.dot_S10000x64_S64x64_S10000x64_1_0_0_1_n_n.contr.Idx) :
    (Cert.KernelIdeal.dot_S10000x64_S64x64_S10000x64_1_0_0_1_n_n.rhsIdx i c 0).val = (c ⟨0, Nat.one_pos⟩).val :=
  Cert.KernelIdeal.dot_S10000x64_S64x64_S10000x64_1_0_0_1_n_n.rhsIdx_val_of_single rfl i c
theorem k10000_rhs_1 (i : Cert.KernelIdeal.S10000x64.Idx) (c : Cert.KernelIdeal.dot_S10000x64_S64x64_S10000x64_1_0_0_1_n_n.contr.Idx) :
    (Cert.KernelIdeal.dot_S10000x64_S64x64_S10000x64_1_0_0_1_n_n.rhsIdx i c 1).val = (i 1).val := by
  unfold DotDims.rhsIdx
  rw [dif_neg (show ¬(1 : Fin Cert.KernelIdeal.S64x64.rank) ∈ Cert.KernelIdeal.dot_S10000x64_S64x64_S10000x64_1_0_0_1_n_n.rhsBatch by
        show ¬(1 : Fin Cert.KernelIdeal.S64x64.rank) ∈ ([] : List (Fin Cert.KernelIdeal.S64x64.rank)); decide),
    dif_pos (show (1 : Fin Cert.KernelIdeal.S64x64.rank) ∈ Cert.KernelIdeal.dot_S10000x64_S64x64_S10000x64_1_0_0_1_n_n.rhsNonContracting by
        show (1 : Fin Cert.KernelIdeal.S64x64.rank) ∈ ([1] : List (Fin Cert.KernelIdeal.S64x64.rank)); decide)]
  rfl

/-- The kernel's 10000 × 64 by 64 × 64 product into a zero accumulator, at (p, q): the sum over the 64 contraction
    coordinates of the products of row p of the left operand and column q of the right one. -/
theorem matmul_S10000x64_apply (l : FVec Ideal Cert.KernelIdeal.S10000x64 .bf16) (r : FVec Ideal Cert.KernelIdeal.S64x64 .bf16) (p : Fin 10000) (q : Fin 64) :
    matmul (F := Ideal) Cert.KernelIdeal.dot_S10000x64_S64x64_S10000x64_1_0_0_1_n_n none l r (constant (F := Ideal) Cert.KernelIdeal.S10000x64 .f32 0x00000000#32) (ValueIdx.ix2 p q) = ∑ k : Fin 64, l (ValueIdx.ix2 p k) * r (ValueIdx.ix2 k q) := by
  simp only [matmul]
  rw [Ideal.matmul_constant_zero_apply, ← Equiv.sum_comp (ValueIdx.contrEquiv1 Cert.KernelIdeal.dot_S10000x64_S64x64_S10000x64_1_0_0_1_n_n 64 rfl rfl).symm]
  refine Finset.sum_congr rfl fun k _ => ?_
  have hk := ValueIdx.contrEquiv1_symm_val Cert.KernelIdeal.dot_S10000x64_S64x64_S10000x64_1_0_0_1_n_n 64 rfl rfl k
  have el : Cert.KernelIdeal.dot_S10000x64_S64x64_S10000x64_1_0_0_1_n_n.lhsIdx (ValueIdx.ix2 p q) ((ValueIdx.contrEquiv1 Cert.KernelIdeal.dot_S10000x64_S64x64_S10000x64_1_0_0_1_n_n 64 rfl rfl).symm k) = ValueIdx.ix2 p k := funext fun a => Fin.ext (by
    match a with
    | ⟨0, _⟩ => exact k10000_lhs_0 _ _
    | ⟨1, _⟩ => exact (k10000_lhs_1 _ _).trans hk)
  have er : Cert.KernelIdeal.dot_S10000x64_S64x64_S10000x64_1_0_0_1_n_n.rhsIdx (ValueIdx.ix2 p q) ((ValueIdx.contrEquiv1 Cert.KernelIdeal.dot_S10000x64_S64x64_S10000x64_1_0_0_1_n_n 64 rfl rfl).symm k) = ValueIdx.ix2 k q := funext fun a => Fin.ext (by
    match a with
    | ⟨0, _⟩ => exact (k10000_rhs_0 _ _).trans hk
    | ⟨1, _⟩ => exact k10000_rhs_1 _ _)
  rw [el, er]

/-- The left operand's index: row the output's row, column the contraction coordinate. -/
theorem k5000_lhs_0 (i : Cert.KernelIdeal.S5000x64.Idx) (c : Cert.KernelIdeal.dot_S5000x64_S64x64_S5000x64_1_0_0_1_n_n.contr.Idx) :
    (Cert.KernelIdeal.dot_S5000x64_S64x64_S5000x64_1_0_0_1_n_n.lhsIdx i c 0).val = (i 0).val := by
  unfold DotDims.lhsIdx
  rw [dif_neg (show ¬(0 : Fin Cert.KernelIdeal.S5000x64.rank) ∈ Cert.KernelIdeal.dot_S5000x64_S64x64_S5000x64_1_0_0_1_n_n.lhsBatch by
        show ¬(0 : Fin Cert.KernelIdeal.S5000x64.rank) ∈ ([] : List (Fin Cert.KernelIdeal.S5000x64.rank)); decide),
    dif_pos (show (0 : Fin Cert.KernelIdeal.S5000x64.rank) ∈ Cert.KernelIdeal.dot_S5000x64_S64x64_S5000x64_1_0_0_1_n_n.lhsNonContracting by
        show (0 : Fin Cert.KernelIdeal.S5000x64.rank) ∈ ([0] : List (Fin Cert.KernelIdeal.S5000x64.rank)); decide)]
  rfl
theorem k5000_lhs_1 (i : Cert.KernelIdeal.S5000x64.Idx) (c : Cert.KernelIdeal.dot_S5000x64_S64x64_S5000x64_1_0_0_1_n_n.contr.Idx) :
    (Cert.KernelIdeal.dot_S5000x64_S64x64_S5000x64_1_0_0_1_n_n.lhsIdx i c 1).val = (c ⟨0, Nat.one_pos⟩).val :=
  Cert.KernelIdeal.dot_S5000x64_S64x64_S5000x64_1_0_0_1_n_n.lhsIdx_val_of_single rfl i c
/-- The right operand's index: row the contraction coordinate, column the output's column. -/
theorem k5000_rhs_0 (i : Cert.KernelIdeal.S5000x64.Idx) (c : Cert.KernelIdeal.dot_S5000x64_S64x64_S5000x64_1_0_0_1_n_n.contr.Idx) :
    (Cert.KernelIdeal.dot_S5000x64_S64x64_S5000x64_1_0_0_1_n_n.rhsIdx i c 0).val = (c ⟨0, Nat.one_pos⟩).val :=
  Cert.KernelIdeal.dot_S5000x64_S64x64_S5000x64_1_0_0_1_n_n.rhsIdx_val_of_single rfl i c
theorem k5000_rhs_1 (i : Cert.KernelIdeal.S5000x64.Idx) (c : Cert.KernelIdeal.dot_S5000x64_S64x64_S5000x64_1_0_0_1_n_n.contr.Idx) :
    (Cert.KernelIdeal.dot_S5000x64_S64x64_S5000x64_1_0_0_1_n_n.rhsIdx i c 1).val = (i 1).val := by
  unfold DotDims.rhsIdx
  rw [dif_neg (show ¬(1 : Fin Cert.KernelIdeal.S64x64.rank) ∈ Cert.KernelIdeal.dot_S5000x64_S64x64_S5000x64_1_0_0_1_n_n.rhsBatch by
        show ¬(1 : Fin Cert.KernelIdeal.S64x64.rank) ∈ ([] : List (Fin Cert.KernelIdeal.S64x64.rank)); decide),
    dif_pos (show (1 : Fin Cert.KernelIdeal.S64x64.rank) ∈ Cert.KernelIdeal.dot_S5000x64_S64x64_S5000x64_1_0_0_1_n_n.rhsNonContracting by
        show (1 : Fin Cert.KernelIdeal.S64x64.rank) ∈ ([1] : List (Fin Cert.KernelIdeal.S64x64.rank)); decide)]
  rfl

/-- The kernel's 5000 × 64 by 64 × 64 product into a zero accumulator, at (p, q): the sum over the 64 contraction
    coordinates of the products of row p of the left operand and column q of the right one. -/
theorem matmul_S5000x64_apply (l : FVec Ideal Cert.KernelIdeal.S5000x64 .bf16) (r : FVec Ideal Cert.KernelIdeal.S64x64 .bf16) (p : Fin 5000) (q : Fin 64) :
    matmul (F := Ideal) Cert.KernelIdeal.dot_S5000x64_S64x64_S5000x64_1_0_0_1_n_n none l r (constant (F := Ideal) Cert.KernelIdeal.S5000x64 .f32 0x00000000#32) (ValueIdx.ix2 p q) = ∑ k : Fin 64, l (ValueIdx.ix2 p k) * r (ValueIdx.ix2 k q) := by
  simp only [matmul]
  rw [Ideal.matmul_constant_zero_apply, ← Equiv.sum_comp (ValueIdx.contrEquiv1 Cert.KernelIdeal.dot_S5000x64_S64x64_S5000x64_1_0_0_1_n_n 64 rfl rfl).symm]
  refine Finset.sum_congr rfl fun k _ => ?_
  have hk := ValueIdx.contrEquiv1_symm_val Cert.KernelIdeal.dot_S5000x64_S64x64_S5000x64_1_0_0_1_n_n 64 rfl rfl k
  have el : Cert.KernelIdeal.dot_S5000x64_S64x64_S5000x64_1_0_0_1_n_n.lhsIdx (ValueIdx.ix2 p q) ((ValueIdx.contrEquiv1 Cert.KernelIdeal.dot_S5000x64_S64x64_S5000x64_1_0_0_1_n_n 64 rfl rfl).symm k) = ValueIdx.ix2 p k := funext fun a => Fin.ext (by
    match a with
    | ⟨0, _⟩ => exact k5000_lhs_0 _ _
    | ⟨1, _⟩ => exact (k5000_lhs_1 _ _).trans hk)
  have er : Cert.KernelIdeal.dot_S5000x64_S64x64_S5000x64_1_0_0_1_n_n.rhsIdx (ValueIdx.ix2 p q) ((ValueIdx.contrEquiv1 Cert.KernelIdeal.dot_S5000x64_S64x64_S5000x64_1_0_0_1_n_n 64 rfl rfl).symm k) = ValueIdx.ix2 k q := funext fun a => Fin.ext (by
    match a with
    | ⟨0, _⟩ => exact (k5000_rhs_0 _ _).trans hk
    | ⟨1, _⟩ => exact k5000_rhs_1 _ _)
  rw [el, er]

end Kernel

/-! ## The reference's two products of a joined matrix, split at the joint -/

section Reference
variable [Cert.ReferenceIdeal.Facts₀]

/-- The left operand's index: row the output's row, column the contraction coordinate. -/
theorem r1200000_lhs_0 (i : Cert.ReferenceIdeal.S1200000x64.Idx) (c : Cert.ReferenceIdeal.dot_S1200000x128_S128x64_S1200000x64_1_0_0_1_n_n.contr.Idx) :
    (Cert.ReferenceIdeal.dot_S1200000x128_S128x64_S1200000x64_1_0_0_1_n_n.lhsIdx i c 0).val = (i 0).val := by
  unfold DotDims.lhsIdx
  rw [dif_neg (show ¬(0 : Fin Cert.ReferenceIdeal.S1200000x128.rank) ∈ Cert.ReferenceIdeal.dot_S1200000x128_S128x64_S1200000x64_1_0_0_1_n_n.lhsBatch by
        show ¬(0 : Fin Cert.ReferenceIdeal.S1200000x128.rank) ∈ ([] : List (Fin Cert.ReferenceIdeal.S1200000x128.rank)); decide),
    dif_pos (show (0 : Fin Cert.ReferenceIdeal.S1200000x128.rank) ∈ Cert.ReferenceIdeal.dot_S1200000x128_S128x64_S1200000x64_1_0_0_1_n_n.lhsNonContracting by
        show (0 : Fin Cert.ReferenceIdeal.S1200000x128.rank) ∈ ([0] : List (Fin Cert.ReferenceIdeal.S1200000x128.rank)); decide)]
  rfl
theorem r1200000_lhs_1 (i : Cert.ReferenceIdeal.S1200000x64.Idx) (c : Cert.ReferenceIdeal.dot_S1200000x128_S128x64_S1200000x64_1_0_0_1_n_n.contr.Idx) :
    (Cert.ReferenceIdeal.dot_S1200000x128_S128x64_S1200000x64_1_0_0_1_n_n.lhsIdx i c 1).val = (c ⟨0, Nat.one_pos⟩).val :=
  Cert.ReferenceIdeal.dot_S1200000x128_S128x64_S1200000x64_1_0_0_1_n_n.lhsIdx_val_of_single rfl i c
/-- The right operand's index: row the contraction coordinate, column the output's column. -/
theorem r1200000_rhs_0 (i : Cert.ReferenceIdeal.S1200000x64.Idx) (c : Cert.ReferenceIdeal.dot_S1200000x128_S128x64_S1200000x64_1_0_0_1_n_n.contr.Idx) :
    (Cert.ReferenceIdeal.dot_S1200000x128_S128x64_S1200000x64_1_0_0_1_n_n.rhsIdx i c 0).val = (c ⟨0, Nat.one_pos⟩).val :=
  Cert.ReferenceIdeal.dot_S1200000x128_S128x64_S1200000x64_1_0_0_1_n_n.rhsIdx_val_of_single rfl i c
theorem r1200000_rhs_1 (i : Cert.ReferenceIdeal.S1200000x64.Idx) (c : Cert.ReferenceIdeal.dot_S1200000x128_S128x64_S1200000x64_1_0_0_1_n_n.contr.Idx) :
    (Cert.ReferenceIdeal.dot_S1200000x128_S128x64_S1200000x64_1_0_0_1_n_n.rhsIdx i c 1).val = (i 1).val := by
  unfold DotDims.rhsIdx
  rw [dif_neg (show ¬(1 : Fin Cert.ReferenceIdeal.S128x64.rank) ∈ Cert.ReferenceIdeal.dot_S1200000x128_S128x64_S1200000x64_1_0_0_1_n_n.rhsBatch by
        show ¬(1 : Fin Cert.ReferenceIdeal.S128x64.rank) ∈ ([] : List (Fin Cert.ReferenceIdeal.S128x64.rank)); decide),
    dif_pos (show (1 : Fin Cert.ReferenceIdeal.S128x64.rank) ∈ Cert.ReferenceIdeal.dot_S1200000x128_S128x64_S1200000x64_1_0_0_1_n_n.rhsNonContracting by
        show (1 : Fin Cert.ReferenceIdeal.S128x64.rank) ∈ ([1] : List (Fin Cert.ReferenceIdeal.S128x64.rank)); decide)]
  rfl

/-- The reference's 1200000 × 128 by 128 × 64 product at (e, j): the sum over the 128 contraction coordinates. -/
theorem dotGeneral_S1200000x128_apply (x : Cert.ReferenceIdeal.S1200000x128.Idx → EReal) (W : Cert.ReferenceIdeal.S128x64.Idx → EReal) (e : Fin 1200000) (j : Fin 64) :
    Host.dotGeneral (F := Ideal) (φ₁ := .f32) (φ₂ := .f32) Cert.ReferenceIdeal.dot_S1200000x128_S128x64_S1200000x64_1_0_0_1_n_n none x W (ValueIdx.ix2 e j) = ∑ k : Fin 128, x (ValueIdx.ix2 e k) * W (ValueIdx.ix2 k j) := by
  simp only [Host.dotGeneral]
  rw [Ideal.dotGeneral_apply, ← Equiv.sum_comp (ValueIdx.contrEquiv1 Cert.ReferenceIdeal.dot_S1200000x128_S128x64_S1200000x64_1_0_0_1_n_n 128 rfl rfl).symm]
  refine Finset.sum_congr rfl fun k _ => ?_
  have hk := ValueIdx.contrEquiv1_symm_val Cert.ReferenceIdeal.dot_S1200000x128_S128x64_S1200000x64_1_0_0_1_n_n 128 rfl rfl k
  have el : Cert.ReferenceIdeal.dot_S1200000x128_S128x64_S1200000x64_1_0_0_1_n_n.lhsIdx (ValueIdx.ix2 e j) ((ValueIdx.contrEquiv1 Cert.ReferenceIdeal.dot_S1200000x128_S128x64_S1200000x64_1_0_0_1_n_n 128 rfl rfl).symm k) = ValueIdx.ix2 e k := funext fun a => Fin.ext (by
    match a with
    | ⟨0, _⟩ => exact r1200000_lhs_0 _ _
    | ⟨1, _⟩ => exact (r1200000_lhs_1 _ _).trans hk)
  have er : Cert.ReferenceIdeal.dot_S1200000x128_S128x64_S1200000x64_1_0_0_1_n_n.rhsIdx (ValueIdx.ix2 e j) ((ValueIdx.contrEquiv1 Cert.ReferenceIdeal.dot_S1200000x128_S128x64_S1200000x64_1_0_0_1_n_n 128 rfl rfl).symm k) = ValueIdx.ix2 k j := funext fun a => Fin.ext (by
    match a with
    | ⟨0, _⟩ => exact (r1200000_rhs_0 _ _).trans hk
    | ⟨1, _⟩ => exact r1200000_rhs_1 _ _)
  rw [el, er]

/-- The two 1200000 × 64 pieces joined along the columns, at a column among the first 64: the first piece there. -/
theorem concat_S1200000x128_left_apply (a b : Cert.ReferenceIdeal.S1200000x64.Idx → EReal) (e : Fin 1200000) (k : Fin 64) :
    concatenate Cert.ReferenceIdeal.S1200000x128 1 [⟨Cert.ReferenceIdeal.S1200000x64, a⟩, ⟨Cert.ReferenceIdeal.S1200000x64, b⟩] Cert.ReferenceIdeal.Facts₀.concatenates_S1200000x64_S1200000x64_S1200000x128_d1 (ValueIdx.ix2 e (Fin.castAdd 64 k)) = a (ValueIdx.ix2 e k) := by
  refine concatenate_pair_apply_left (t := Cert.ReferenceIdeal.S1200000x128) 1 a b Cert.ReferenceIdeal.Facts₀.concatenates_S1200000x64_S1200000x64_S1200000x128_d1 (ValueIdx.ix2 e (Fin.castAdd 64 k)) rfl (ValueIdx.ix2 e k) fun c => ?_
  match c with
  | ⟨0, _⟩ => rfl
  | ⟨1, _⟩ => rfl

/-- At a column among the last 64: the second piece, 64 columns back. -/
theorem concat_S1200000x128_right_apply (a b : Cert.ReferenceIdeal.S1200000x64.Idx → EReal) (e : Fin 1200000) (k : Fin 64) :
    concatenate Cert.ReferenceIdeal.S1200000x128 1 [⟨Cert.ReferenceIdeal.S1200000x64, a⟩, ⟨Cert.ReferenceIdeal.S1200000x64, b⟩] Cert.ReferenceIdeal.Facts₀.concatenates_S1200000x64_S1200000x64_S1200000x128_d1 (ValueIdx.ix2 e (Fin.natAdd 64 k)) = b (ValueIdx.ix2 e k) := by
  refine concatenate_pair_apply_right (t := Cert.ReferenceIdeal.S1200000x128) 1 a b Cert.ReferenceIdeal.Facts₀.concatenates_S1200000x64_S1200000x64_S1200000x128_d1 (ValueIdx.ix2 e (Fin.natAdd 64 k)) rfl rfl (ValueIdx.ix2 e k) (fun c hc => ?_) ?_
  · match c with
    | ⟨0, _⟩ => rfl
    | ⟨1, _⟩ => exact absurd rfl hc
  · show k.val + 64 = 64 + k.val
    omega

/-- The reference's product of the joined 1200000 × 128 matrix with a 128 × 64 matrix, at (e, j), split at the joint:
    the first piece against the first 64 rows of the matrix plus the second piece against its last 64 rows. -/
theorem dotGeneral_concat_S1200000_apply (a b : Cert.ReferenceIdeal.S1200000x64.Idx → EReal) (W : Cert.ReferenceIdeal.S128x64.Idx → EReal) (e : Fin 1200000) (j : Fin 64) :
    Host.dotGeneral (F := Ideal) (φ₁ := .f32) (φ₂ := .f32) Cert.ReferenceIdeal.dot_S1200000x128_S128x64_S1200000x64_1_0_0_1_n_n none (concatenate Cert.ReferenceIdeal.S1200000x128 1 [⟨Cert.ReferenceIdeal.S1200000x64, a⟩, ⟨Cert.ReferenceIdeal.S1200000x64, b⟩] Cert.ReferenceIdeal.Facts₀.concatenates_S1200000x64_S1200000x64_S1200000x128_d1) W (ValueIdx.ix2 e j) = (∑ k : Fin 64, a (ValueIdx.ix2 e k) * W (ValueIdx.ix2 (Fin.castAdd 64 k) j)) + ∑ k : Fin 64, b (ValueIdx.ix2 e k) * W (ValueIdx.ix2 (Fin.natAdd 64 k) j) := by
  rw [dotGeneral_S1200000x128_apply]
  refine (Fin.sum_univ_add (a := 64) (b := 64) fun k : Fin (64 + 64) => (concatenate Cert.ReferenceIdeal.S1200000x128 1 [⟨Cert.ReferenceIdeal.S1200000x64, a⟩, ⟨Cert.ReferenceIdeal.S1200000x64, b⟩] Cert.ReferenceIdeal.Facts₀.concatenates_S1200000x64_S1200000x64_S1200000x128_d1) (ValueIdx.ix2 e k) * W (ValueIdx.ix2 k j)).trans ?_
  simp only [concat_S1200000x128_left_apply, concat_S1200000x128_right_apply]

/-- The left operand's index: row the output's row, column the contraction coordinate. -/
theorem r100000_lhs_0 (i : Cert.ReferenceIdeal.S100000x64.Idx) (c : Cert.ReferenceIdeal.dot_S100000x128_S128x64_S100000x64_1_0_0_1_n_n.contr.Idx) :
    (Cert.ReferenceIdeal.dot_S100000x128_S128x64_S100000x64_1_0_0_1_n_n.lhsIdx i c 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by
        show ¬(0 : Fin Cert.ReferenceIdeal.S100000x128.rank) ∈ ([] : List (Fin Cert.ReferenceIdeal.S100000x128.rank)); decide),
    dif_pos (show (0 : Fin Cert.ReferenceIdeal.S100000x128.rank) ∈ Cert.ReferenceIdeal.dot_S100000x128_S128x64_S100000x64_1_0_0_1_n_n.lhsNonContracting by
        show (0 : Fin Cert.ReferenceIdeal.S100000x128.rank) ∈ ([0] : List (Fin Cert.ReferenceIdeal.S100000x128.rank)); decide)]
  rfl
theorem r100000_lhs_1 (i : Cert.ReferenceIdeal.S100000x64.Idx) (c : Cert.ReferenceIdeal.dot_S100000x128_S128x64_S100000x64_1_0_0_1_n_n.contr.Idx) :
    (Cert.ReferenceIdeal.dot_S100000x128_S128x64_S100000x64_1_0_0_1_n_n.lhsIdx i c 1).val = (c ⟨0, Nat.one_pos⟩).val :=
  Cert.ReferenceIdeal.dot_S100000x128_S128x64_S100000x64_1_0_0_1_n_n.lhsIdx_val_of_single rfl i c
/-- The right operand's index: row the contraction coordinate, column the output's column. -/
theorem r100000_rhs_0 (i : Cert.ReferenceIdeal.S100000x64.Idx) (c : Cert.ReferenceIdeal.dot_S100000x128_S128x64_S100000x64_1_0_0_1_n_n.contr.Idx) :
    (Cert.ReferenceIdeal.dot_S100000x128_S128x64_S100000x64_1_0_0_1_n_n.rhsIdx i c 0).val = (c ⟨0, Nat.one_pos⟩).val :=
  Cert.ReferenceIdeal.dot_S100000x128_S128x64_S100000x64_1_0_0_1_n_n.rhsIdx_val_of_single rfl i c
theorem r100000_rhs_1 (i : Cert.ReferenceIdeal.S100000x64.Idx) (c : Cert.ReferenceIdeal.dot_S100000x128_S128x64_S100000x64_1_0_0_1_n_n.contr.Idx) :
    (Cert.ReferenceIdeal.dot_S100000x128_S128x64_S100000x64_1_0_0_1_n_n.rhsIdx i c 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by
        show ¬(1 : Fin Cert.ReferenceIdeal.S128x64.rank) ∈ ([] : List (Fin Cert.ReferenceIdeal.S128x64.rank)); decide),
    dif_pos (show (1 : Fin Cert.ReferenceIdeal.S128x64.rank) ∈ Cert.ReferenceIdeal.dot_S100000x128_S128x64_S100000x64_1_0_0_1_n_n.rhsNonContracting by
        show (1 : Fin Cert.ReferenceIdeal.S128x64.rank) ∈ ([1] : List (Fin Cert.ReferenceIdeal.S128x64.rank)); decide)]
  rfl

/-- The reference's 100000 × 128 by 128 × 64 product at (e, j): the sum over the 128 contraction coordinates. -/
theorem dotGeneral_S100000x128_apply (x : Cert.ReferenceIdeal.S100000x128.Idx → EReal) (W : Cert.ReferenceIdeal.S128x64.Idx → EReal) (e : Fin 100000) (j : Fin 64) :
    Host.dotGeneral (F := Ideal) (φ₁ := .f32) (φ₂ := .f32) Cert.ReferenceIdeal.dot_S100000x128_S128x64_S100000x64_1_0_0_1_n_n none x W (ValueIdx.ix2 e j) = ∑ k : Fin 128, x (ValueIdx.ix2 e k) * W (ValueIdx.ix2 k j) := by
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ValueIdx.ix2 e j) ((ValueIdx.contrEquiv1 Cert.ReferenceIdeal.dot_S100000x128_S128x64_S100000x64_1_0_0_1_n_n 128 rfl rfl).symm k) = ValueIdx.ix2 e k := funext fun a => Fin.ext (by
    match a with
    | ⟨0, _⟩ => exact r100000_lhs_0 _ _
    | ⟨1, _⟩ => exact (r100000_lhs_1 _ _).trans hk)
  have er : Cert.ReferenceIdeal.dot_S100000x128_S128x64_S100000x64_1_0_0_1_n_n.rhsIdx (ValueIdx.ix2 e j) ((ValueIdx.contrEquiv1 Cert.ReferenceIdeal.dot_S100000x128_S128x64_S100000x64_1_0_0_1_n_n 128 rfl rfl).symm k) = ValueIdx.ix2 k j := funext fun a => Fin.ext (by
    match a with
    | ⟨0, _⟩ => exact (r100000_rhs_0 _ _).trans hk
    | ⟨1, _⟩ => exact r100000_rhs_1 _ _)
  rw [el, er]

/-- The two 100000 × 64 pieces joined along the columns, at a column among the first 64: the first piece there. -/
theorem concat_S100000x128_left_apply (a b : Cert.ReferenceIdeal.S100000x64.Idx → EReal) (e : Fin 100000) (k : Fin 64) :
    concatenate Cert.ReferenceIdeal.S100000x128 1 [⟨Cert.ReferenceIdeal.S100000x64, a⟩, ⟨Cert.ReferenceIdeal.S100000x64, b⟩] Cert.ReferenceIdeal.Facts₀.concatenates_S100000x64_S100000x64_S100000x128_d1 (ValueIdx.ix2 e (Fin.castAdd 64 k)) = a (ValueIdx.ix2 e k) := by
  refine concatenate_pair_apply_left (t := Cert.ReferenceIdeal.S100000x128) 1 a b Cert.ReferenceIdeal.Facts₀.concatenates_S100000x64_S100000x64_S100000x128_d1 (ValueIdx.ix2 e (Fin.castAdd 64 k)) rfl (ValueIdx.ix2 e k) fun c => ?_
  match c with
  | ⟨0, _⟩ => rfl
  | ⟨1, _⟩ => rfl

/-- At a column among the last 64: the second piece, 64 columns back. -/
theorem concat_S100000x128_right_apply (a b : Cert.ReferenceIdeal.S100000x64.Idx → EReal) (e : Fin 100000) (k : Fin 64) :
    concatenate Cert.ReferenceIdeal.S100000x128 1 [⟨Cert.ReferenceIdeal.S100000x64, a⟩, ⟨Cert.ReferenceIdeal.S100000x64, b⟩] Cert.ReferenceIdeal.Facts₀.concatenates_S100000x64_S100000x64_S100000x128_d1 (ValueIdx.ix2 e (Fin.natAdd 64 k)) = b (ValueIdx.ix2 e k) := by
  refine concatenate_pair_apply_right (t := Cert.ReferenceIdeal.S100000x128) 1 a b Cert.ReferenceIdeal.Facts₀.concatenates_S100000x64_S100000x64_S100000x128_d1 (ValueIdx.ix2 e (Fin.natAdd 64 k)) rfl rfl (ValueIdx.ix2 e k) (fun c hc => ?_) ?_
  · match c with
    | ⟨0, _⟩ => rfl
    | ⟨1, _⟩ => exact absurd rfl hc
  · show k.val + 64 = 64 + k.val
    omega

/-- The reference's product of the joined 100000 × 128 matrix with a 128 × 64 matrix, at (e, j), split at the joint:
    the first piece against the first 64 rows of the matrix plus the second piece against its last 64 rows. -/
theorem dotGeneral_concat_S100000_apply (a b : Cert.ReferenceIdeal.S100000x64.Idx → EReal) (W : Cert.ReferenceIdeal.S128x64.Idx → EReal) (e : Fin 100000) (j : Fin 64) :
    Host.dotGeneral (F := Ideal) (φ₁ := .f32) (φ₂ := .f32) Cert.ReferenceIdeal.dot_S100000x128_S128x64_S100000x64_1_0_0_1_n_n none (concatenate Cert.ReferenceIdeal.S100000x128 1 [⟨Cert.ReferenceIdeal.S100000x64, a⟩, ⟨Cert.ReferenceIdeal.S100000x64, b⟩] Cert.ReferenceIdeal.Facts₀.concatenates_S100000x64_S100000x64_S100000x128_d1) W (ValueIdx.ix2 e j) = (∑ k : Fin 64, a (ValueIdx.ix2 e k) * W (ValueIdx.ix2 (Fin.castAdd 64 k) j)) + ∑ k : Fin 64, b (ValueIdx.ix2 e k) * W (ValueIdx.ix2 (Fin.natAdd 64 k) j) := by
  rw [dotGeneral_S100000x128_apply]
  refine (Fin.sum_univ_add (a := 64) (b := 64) fun k : Fin (64 + 64) => (concatenate Cert.ReferenceIdeal.S100000x128 1 [⟨Cert.ReferenceIdeal.S100000x64, a⟩, ⟨Cert.ReferenceIdeal.S100000x64, b⟩] Cert.ReferenceIdeal.Facts₀.concatenates_S100000x64_S100000x64_S100000x128_d1) (ValueIdx.ix2 e k) * W (ValueIdx.ix2 k j)).trans ?_
  simp only [concat_S100000x128_left_apply, concat_S100000x128_right_apply]

end Reference

/-! ## The two 64-row slices of a 128 × 64 matrix at an index -/

section KernelSlices
variable [Cert.KernelIdeal.Facts₀]

/-- The slice of rows 0 … 63, at (k, j): the matrix at row k (as one of the first 64 of the 128), column j. -/
theorem slice_S128x64_rows0_apply (W : Cert.KernelIdeal.S128x64.Idx → EReal) (k j : Fin 64) :
    extractStridedSlice Cert.KernelIdeal.S64x64 ![0, 0] W Cert.KernelIdeal.Facts₀.slices_S128x64_S64x64_0_0 (ValueIdx.ix2 k j) = W (ValueIdx.ix2 (Fin.castAdd 64 k) j) := by
  refine extractStridedSlice_apply _ W _ _ _ fun a => ?_
  match a with
  | ⟨0, _⟩ => show k.val = 0 + k.val; omega
  | ⟨1, _⟩ => show j.val = 0 + j.val; omega

/-- The slice of rows 64 … 127, at (k, j): the matrix at row 64 + k, column j. -/
theorem slice_S128x64_rows64_apply (W : Cert.KernelIdeal.S128x64.Idx → EReal) (k j : Fin 64) :
    extractStridedSlice Cert.KernelIdeal.S64x64 ![64, 0] W Cert.KernelIdeal.Facts₀.slices_S128x64_S64x64_64_0 (ValueIdx.ix2 k j) = W (ValueIdx.ix2 (Fin.natAdd 64 k) j) := by
  refine extractStridedSlice_apply _ W _ _ _ fun a => ?_
  match a with
  | ⟨0, _⟩ => show 64 + k.val = 64 + k.val; rfl
  | ⟨1, _⟩ => show j.val = 0 + j.val; omega

end KernelSlices

end Cert.Contract

end
-- ==== Proof.Payload.lean ====
/-
  The two kernel bodies' arithmetic, read at one index, over the extended reals.

  The message kernel's block (rows of edges, 64 columns): entry (p, q) is
      ∑ₖ nsrc(p, k) · wₙ(k, q)  +  ∑ₖ ef(p, k) · wₑ(k, q)  +  b(q),
  two matrix products into a zero accumulator (exact 64-term sums; a change of float format is the identity) and the
  bias row broadcast down the rows.
  The node kernel's block (rows of nodes): entry (p, q) is
      max( ∑ₖ nf(p, k) · wₙ(k, q)  +  ∑ₖ (msum(p, k) · inv(p, 0)) · wₕ(k, q)  +  b(q),  0 ),
  where the row's neighbour sum is scaled by the row's one reciprocal-degree entry (a column broadcast across the 64
  columns) before the second product.
-/
import proofs.«100682_j6528350290008_2_alg».proof.Proof.Gen.KernelIdeal.Skeleton
import proofs.«100682_j6528350290008_2_alg».proof.Proof.Contract
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-- An `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The message kernel's stored block at row `p`, column `q`. -/
theorem msg_apply (x0 : Vec Ideal S10000x64 .bf16) (x1 : Vec Ideal S10000x64 .f32) (x2 x3 : Vec Ideal S64x64 .f32)
    (x4 : Vec Ideal S64 .f32) (p : Fin 10000) (q : Fin 64) :
    k0_pay1 (F := Ideal) x0 x1 x2 x3 x4 (ix2 p q)
      = ((∑ k : Fin 64, x0 (ix2 p k) * x2 (ix2 k q)) + ∑ k : Fin 64, x1 (ix2 p k) * x3 (ix2 k q)) + x4 (ix1 q) := by
  unfold k0_pay1
  simp only [addf_apply, shapeCast_self]
  rw [Cert.Contract.matmul_S10000x64_apply, Cert.Contract.matmul_S10000x64_apply, broadcastTo_1b_ab_apply,
    shapeCast_a_1a_apply]
  simp only [truncf_apply]

/-- The node kernel's stored block at row `p`, column `q`. -/
theorem node_apply (v0 : Vec Ideal S5000x1 .f32) (v2 v6 : Vec Ideal S5000x64 .f32) (v9 v12 : Vec Ideal S64x64 .f32)
    (v18 : Vec Ideal S64 .f32) (p : Fin 5000) (q : Fin 64) :
    k1_pay1 (F := Ideal) v0 v2 v6 v9 v12 v18 (ix2 p q)
      = max (((∑ k : Fin 64, v6 (ix2 p k) * v9 (ix2 k q))
              + ∑ k : Fin 64, (v2 (ix2 p k) * v0 (ix2 p (0 : Fin 1))) * v12 (ix2 k q)) + v18 (ix1 q))
          (Ideal.ofBits .f32 0x00000000#32) := by
  unfold k1_pay1
  simp only [addf_apply, maximumf_apply, shapeCast_self, broadcast_apply]
  rw [Cert.Contract.matmul_S5000x64_apply, Cert.Contract.matmul_S5000x64_apply, broadcastTo_1b_ab_apply,
    shapeCast_a_1a_apply]
  simp only [truncf_apply, mulf_apply, broadcastTo_a1_ab_apply]
  rfl

end Cert.KernelIdeal.Payload

end
-- ==== Proof.Region0.lean ====
/-
  The first region (the per-edge message kernel) as one whole-array function.

  The 1200000 edges are cut into 120 blocks of 10000 rows; grid point t stages block t of the gathered source features
  and of the edge features, and the whole of the two 64×64 weight halves and of the bias, and writes block t of the
  message array. Row e of the result depends on row e of the two feature arrays only, so what point t writes back is
  block t of ONE function of the whole arrays,
      Msg(e, j) = ∑ₖ nsrc(e, k) · wₙ(k, j) + ∑ₖ ef(e, k) · wₑ(k, j) + b(j),
  and the 120 blocks cover the array: after the region the array holds Msg everywhere.
-/
import proofs.«100682_j6528350290008_2_alg».proof.Proof.Gen.KernelIdeal.Frame
import proofs.«100682_j6528350290008_2_alg».proof.Proof.Payload

set_option maxRecDepth 16384

noncomputable section

namespace Cert.KernelIdeal.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- Entry (e, j) of the message array from the whole arrays. -/
def msgAt (a0 a1 : S1200000x64.Idx → EReal) (w0 w1 : S64x64.Idx → EReal) (b : S64.Idx → EReal)
    (e : Fin 1200000) (j : Fin 64) : EReal :=
  ((∑ k : Fin 64, a0 (ix2 e k) * w0 (ix2 k j)) + ∑ k : Fin 64, a1 (ix2 e k) * w1 (ix2 k j)) + b (ix1 j)

/-- The message array as a function of the gathered source features, the edge features, the two weight halves and
    the bias. -/
def Msg (a0 a1 : S1200000x64.Idx → EReal) (w0 w1 : S64x64.Idx → EReal) (b : S64.Idx → EReal) :
    S1200000x64.Idx → EReal :=
  fun i => msgAt a0 a1 w0 w1 b (i 0) (i 1)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps over the grid: the three row-blocked windows sit at block row t, every other block
    index is zero. -/
theorem index_facts : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 119 :=
  (by decide +kernel : ∀ t : Fin grid0.N, _)

/-- Every block row is some point's. -/
theorem index_onto : ∀ q0 : Fin 120, ∃ t : Fin cfg0.N, win0_5.index t = ![q0.val, 0] :=
  (by decide +kernel : ∀ q0 : Fin 120, ∃ t : Fin grid0.N, win0_5.index t = ![q0.val, 0])

/-- What point t writes back is block t of `Msg` of the arrays as the region finds them. -/
theorem flushed_eq (c : Dev nD) (t : Fin cfg0.N) :
    (dat0 V c).flushed 5 t = ((cfg0.win 5).blk t).view.read (Elt Ideal)
      (Msg (V c main_v7) (V c main_arg1) (V c main_v8) (V c main_v9) (V c main_arg5)) := by
  show (cfg0.win 5).cut (grid0.coords t) ((dat0 V c).after 5 t) = _
  rw [after0_5]
  unfold out0_5
  rw [View.canon_unit_zero zero2]
  simp only [View.ld_unit_zero (S := S10000x64) zero2, View.ld_unit_zero (S := S64x64) zero2,
    View.ld_unit_zero (S := S64) zero1]
  obtain ⟨e0, e1, e2, e3, e4, e5, e6, e7, e8, e9, e10⟩ := index_facts t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = Msg (V c main_v7) (V c main_arg1) (V c main_v8) (V c main_v9) (V c main_arg5)
        (((cfg0.win 5).blk t).view.emb (ix2 p q))
  refine (Payload.msg_apply (iblk0 V c 0 t) (iblk0 V c 1 t) (iblk0 V c 2 t) (iblk0 V c 3 t) (iblk0 V c 4 t) p q).trans ?_
  have hp : p.val < 10000 := p.isLt
  have hq : q.val < 64 := q.isLt
  have r0 : ∀ k : Fin 64, iblk0 V c 0 t (ix2 p k)
      = V c main_v7 (ix2 ((((cfg0.win 5).blk t).view.emb (ix2 p q)) 0) k) := fun k => by
    show V c main_v7 (((cfg0.win 0).blk t).view.emb (ix2 p k)) = _
    congr 1; funext a; apply Fin.ext
    have hk : k.val < 64 := k.isLt
    match a with
    | ⟨0, _⟩ => show win0_0.index t (0 : Fin 2) * 10000 + 1 * p.val = win0_5.index t (0 : Fin 2) * 10000 + 1 * p.val; omega
    | ⟨1, _⟩ => show win0_0.index t (1 : Fin 2) * 64 + 1 * k.val = k.val; omega
  have r1 : ∀ k : Fin 64, iblk0 V c 1 t (ix2 p k)
      = V c main_arg1 (ix2 ((((cfg0.win 5).blk t).view.emb (ix2 p q)) 0) k) := fun k => by
    show V c main_arg1 (((cfg0.win 1).blk t).view.emb (ix2 p k)) = _
    congr 1; funext a; apply Fin.ext
    have hk : k.val < 64 := k.isLt
    match a with
    | ⟨0, _⟩ => show win0_1.index t (0 : Fin 2) * 10000 + 1 * p.val = win0_5.index t (0 : Fin 2) * 10000 + 1 * p.val; omega
    | ⟨1, _⟩ => show win0_1.index t (1 : Fin 2) * 64 + 1 * k.val = k.val; omega
  have r2 : ∀ k : Fin 64, iblk0 V c 2 t (ix2 k q)
      = V c main_v8 (ix2 k ((((cfg0.win 5).blk t).view.emb (ix2 p q)) 1)) := fun k => by
    show V c main_v8 (((cfg0.win 2).blk t).view.emb (ix2 k q)) = _
    congr 1; funext a; apply Fin.ext
    have hk : k.val < 64 := k.isLt
    match a with
    | ⟨0, _⟩ => show win0_2.index t (0 : Fin 2) * 64 + 1 * k.val = k.val; omega
    | ⟨1, _⟩ => show win0_2.index t (1 : Fin 2) * 64 + 1 * q.val = win0_5.index t (1 : Fin 2) * 64 + 1 * q.val; omega
  have r3 : ∀ k : Fin 64, iblk0 V c 3 t (ix2 k q)
      = V c main_v9 (ix2 k ((((cfg0.win 5).blk t).view.emb (ix2 p q)) 1)) := fun k => by
    show V c main_v9 (((cfg0.win 3).blk t).view.emb (ix2 k q)) = _
    congr 1; funext a; apply Fin.ext
    have hk : k.val < 64 := k.isLt
    match a with
    | ⟨0, _⟩ => show win0_3.index t (0 : Fin 2) * 64 + 1 * k.val = k.val; omega
    | ⟨1, _⟩ => show win0_3.index t (1 : Fin 2) * 64 + 1 * q.val = win0_5.index t (1 : Fin 2) * 64 + 1 * q.val; omega
  have r4 : iblk0 V c 4 t (ix1 q)
      = V c main_arg5 (ix1 ((((cfg0.win 5).blk t).view.emb (ix2 p q)) 1)) := by
    show V c main_arg5 (((cfg0.win 4).blk t).view.emb (ix1 q)) = _
    congr 1; funext a; apply Fin.ext
    match a with
    | ⟨0, _⟩ => show win0_4.index t (0 : Fin 1) * 64 + 1 * q.val = win0_5.index t (1 : Fin 2) * 64 + 1 * q.val; omega
  simp only [r0, r1, r2, r3, r4]
  rfl

/-- An index of the array is in point t's block iff each coordinate is in the block's range on its axis. -/
theorem mem_blk (t : Fin cfg0.N) (i : S1200000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v10).slice (win0_5.rect t)).set ↔ _
  rw [View.set_slice_whole, Rect.mem_set_unit]
  exact Iff.rfl

/-- Every index lies in the block of the point whose block row is its row divided by 10000. -/
theorem cover (i : S1200000x64.Idx) :
    ∃ t : Fin cfg0.N, (cfg0.win 5).flush t = true ∧ i ∈ ((cfg0.win 5).blk t).view.set := by
  have hi0 : (i 0).val < 1200000 := (i 0).isLt
  have hi1 : (i 1).val < 64 := (i 1).isLt
  obtain ⟨t, ht⟩ := index_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- After the region the message array holds `Msg` of the arrays the region found. -/
theorem final (c : Dev nD) : (dat0 V c).arrAt 5 cfg0.N
    = Msg (V c main_v7) (V c main_arg1) (V c main_v8) (V c main_v9) (V c main_arg5) :=
  (dat0 V c).arrAt_eq_of_cover 5 _ (fun t _ => flushed_eq V c t) cover

end Cert.KernelIdeal.Region0

end
-- ==== Proof.Region1.lean ====
/-
  The second region (the per-node update kernel) as one whole-array function.

  The 100000 nodes are cut into 20 blocks of 5000 rows; grid point t stages block t of the node features, of the
  neighbour sums and of the one-column array of reciprocal degrees, and the whole of the two 64×64 weight halves and of
  the bias, and writes block t of the result. Row n of the result depends on row n of the three row-blocked arrays only,
  so what point t writes back is block t of ONE function of the whole arrays,
      Node(n, j) = max( ∑ₖ nf(n, k) · wₙ(k, j) + ∑ₖ (msum(n, k) · inv(n, 0)) · wₕ(k, j) + b(j), 0 ),
  and the 20 blocks cover the array: after the region the array holds Node everywhere.
-/
import proofs.«100682_j6528350290008_2_alg».proof.Proof.Gen.KernelIdeal.Frame
import proofs.«100682_j6528350290008_2_alg».proof.Proof.Payload

set_option maxRecDepth 16384

noncomputable section

namespace Cert.KernelIdeal.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- Entry (n, j) of the update from the node features `a0` and the neighbour means `hn`:
    max( ∑ₖ a0(n, k) · w0(k, j) + ∑ₖ hn(n, k) · w1(k, j) + b(j), 0 ). -/
def updateAt (a0 hn : S100000x64.Idx → EReal) (w0 w1 : S64x64.Idx → EReal) (b : S64.Idx → EReal)
    (n : Fin 100000) (j : Fin 64) : EReal :=
  max (((∑ k : Fin 64, a0 (ix2 n k) * w0 (ix2 k j)) + ∑ k : Fin 64, hn (ix2 n k) * w1 (ix2 k j)) + b (ix1 j))
    (Ideal.ofBits .f32 0x00000000#32)

/-- The update as an array. -/
def Update (a0 hn : S100000x64.Idx → EReal) (w0 w1 : S64x64.Idx → EReal) (b : S64.Idx → EReal) :
    S100000x64.Idx → EReal :=
  fun i => updateAt a0 hn w0 w1 b (i 0) (i 1)

/-- A row's neighbour sum scaled by the row's one reciprocal-degree entry. -/
def scaled (a1 : S100000x64.Idx → EReal) (a2 : S100000x1.Idx → EReal) : S100000x64.Idx → EReal :=
  fun i => a1 i * a2 (ix2 (i 0) (0 : Fin 1))

/-- The result array as a function of the node features, the neighbour sums, the reciprocal degrees, the two weight
    halves and the bias: the update at the scaled neighbour sums. -/
def Node (a0 a1 : S100000x64.Idx → EReal) (a2 : S100000x1.Idx → EReal) (w0 w1 : S64x64.Idx → EReal)
    (b : S64.Idx → EReal) : S100000x64.Idx → EReal :=
  Update a0 (scaled a1 a2) w0 w1 b

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps over the grid: the four row-blocked windows sit at block row t, every other block
    index is zero. -/
theorem index_facts : ∀ t : Fin cfg1.N, win1_0.index t (0 : Fin 2) = win1_6.index t (0 : Fin 2)
    ∧ win1_0.index t (1 : Fin 2) = 0
    ∧ win1_1.index t (0 : Fin 2) = win1_6.index t (0 : Fin 2)
    ∧ win1_1.index t (1 : Fin 2) = 0
    ∧ win1_2.index t (0 : Fin 2) = win1_6.index t (0 : Fin 2)
    ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (1 : Fin 2) = 0 ∧ win1_6.index t (0 : Fin 2) ≤ 19 :=
  (by decide +kernel : ∀ t : Fin grid1.N, _)

/-- Every block row is some point's. -/
theorem index_onto : ∀ q0 : Fin 20, ∃ t : Fin cfg1.N, win1_6.index t = ![q0.val, 0] :=
  (by decide +kernel : ∀ q0 : Fin 20, ∃ t : Fin grid1.N, win1_6.index t = ![q0.val, 0])

/-- What point t writes back is block t of `Node` of the arrays as the region finds them. -/
theorem flushed_eq (c : Dev nD) (t : Fin cfg1.N) :
    (dat1 V c).flushed 6 t = ((cfg1.win 6).blk t).view.read (Elt Ideal)
      (Node (V c main_arg0) (V c main_v13) (V c main_v26) (V c main_v27) (V c main_v28) (V c main_arg7)) := by
  show (cfg1.win 6).cut (grid1.coords t) ((dat1 V c).after 6 t) = _
  rw [after1_6]
  unfold out1_6
  rw [View.canon_unit_zero zero2]
  simp only [View.ld_unit_zero (S := S5000x64) zero2, View.ld_unit_zero (S := S5000x1) zero2,
    View.ld_unit_zero (S := S64x64) zero2, View.ld_unit_zero (S := S64) zero1]
  obtain ⟨e0, e1, e2, e3, e4, e5, e6, e7, e8, e9, e10, e11, e12⟩ := index_facts t
  funext j
  obtain ⟨p, q, rfl⟩ : ∃ (p : Fin 5000) (q : Fin 64), j = ix2 p q := ⟨j 0, j 1, eq_ix2 j⟩
  show k1_pay1 (F := Ideal) (iblk1 V c 2 t) (iblk1 V c 1 t) (iblk1 V c 0 t) (iblk1 V c 3 t) (iblk1 V c 4 t) (iblk1 V c 5 t) (ix2 p q)
    = Node (V c main_arg0) (V c main_v13) (V c main_v26) (V c main_v27) (V c main_v28) (V c main_arg7)
        (((cfg1.win 6).blk t).view.emb (ix2 p q))
  refine (Payload.node_apply (iblk1 V c 2 t) (iblk1 V c 1 t) (iblk1 V c 0 t) (iblk1 V c 3 t) (iblk1 V c 4 t) (iblk1 V c 5 t) p q).trans ?_
  have hp : p.val < 5000 := p.isLt
  have hq : q.val < 64 := q.isLt
  have r0 : ∀ k : Fin 64, iblk1 V c 0 t (ix2 p k)
      = V c main_arg0 (ix2 ((((cfg1.win 6).blk t).view.emb (ix2 p q)) 0) k) := fun k => by
    show V c main_arg0 (((cfg1.win 0).blk t).view.emb (ix2 p k)) = _
    congr 1; funext a; apply Fin.ext
    have hk : k.val < 64 := k.isLt
    match a with
    | ⟨0, _⟩ => show win1_0.index t (0 : Fin 2) * 5000 + 1 * p.val = win1_6.index t (0 : Fin 2) * 5000 + 1 * p.val; omega
    | ⟨1, _⟩ => show win1_0.index t (1 : Fin 2) * 64 + 1 * k.val = k.val; omega
  have r1 : ∀ k : Fin 64, iblk1 V c 1 t (ix2 p k)
      = V c main_v13 (ix2 ((((cfg1.win 6).blk t).view.emb (ix2 p q)) 0) k) := fun k => by
    show V c main_v13 (((cfg1.win 1).blk t).view.emb (ix2 p k)) = _
    congr 1; funext a; apply Fin.ext
    have hk : k.val < 64 := k.isLt
    match a with
    | ⟨0, _⟩ => show win1_1.index t (0 : Fin 2) * 5000 + 1 * p.val = win1_6.index t (0 : Fin 2) * 5000 + 1 * p.val; omega
    | ⟨1, _⟩ => show win1_1.index t (1 : Fin 2) * 64 + 1 * k.val = k.val; omega
  have r2 : iblk1 V c 2 t (ix2 p (0 : Fin 1))
      = V c main_v26 (ix2 ((((cfg1.win 6).blk t).view.emb (ix2 p q)) 0) (0 : Fin 1)) := by
    show V c main_v26 (((cfg1.win 2).blk t).view.emb (ix2 p (0 : Fin 1))) = _
    congr 1; funext a; apply Fin.ext
    match a with
    | ⟨0, _⟩ => show win1_2.index t (0 : Fin 2) * 5000 + 1 * p.val = win1_6.index t (0 : Fin 2) * 5000 + 1 * p.val; omega
    | ⟨1, _⟩ => show win1_2.index t (1 : Fin 2) * 1 + 1 * 0 = 0; omega
  have r3 : ∀ k : Fin 64, iblk1 V c 3 t (ix2 k q)
      = V c main_v27 (ix2 k ((((cfg1.win 6).blk t).view.emb (ix2 p q)) 1)) := fun k => by
    show V c main_v27 (((cfg1.win 3).blk t).view.emb (ix2 k q)) = _
    congr 1; funext a; apply Fin.ext
    have hk : k.val < 64 := k.isLt
    match a with
    | ⟨0, _⟩ => show win1_3.index t (0 : Fin 2) * 64 + 1 * k.val = k.val; omega
    | ⟨1, _⟩ => show win1_3.index t (1 : Fin 2) * 64 + 1 * q.val = win1_6.index t (1 : Fin 2) * 64 + 1 * q.val; omega
  have r4 : ∀ k : Fin 64, iblk1 V c 4 t (ix2 k q)
      = V c main_v28 (ix2 k ((((cfg1.win 6).blk t).view.emb (ix2 p q)) 1)) := fun k => by
    show V c main_v28 (((cfg1.win 4).blk t).view.emb (ix2 k q)) = _
    congr 1; funext a; apply Fin.ext
    have hk : k.val < 64 := k.isLt
    match a with
    | ⟨0, _⟩ => show win1_4.index t (0 : Fin 2) * 64 + 1 * k.val = k.val; omega
    | ⟨1, _⟩ => show win1_4.index t (1 : Fin 2) * 64 + 1 * q.val = win1_6.index t (1 : Fin 2) * 64 + 1 * q.val; omega
  have r5 : iblk1 V c 5 t (ix1 q)
      = V c main_arg7 (ix1 ((((cfg1.win 6).blk t).view.emb (ix2 p q)) 1)) := by
    show V c main_arg7 (((cfg1.win 5).blk t).view.emb (ix1 q)) = _
    congr 1; funext a; apply Fin.ext
    match a with
    | ⟨0, _⟩ => show win1_5.index t (0 : Fin 1) * 64 + 1 * q.val = win1_6.index t (1 : Fin 2) * 64 + 1 * q.val; omega
  simp only [r0, r1, r2, r3, r4, r5]
  rfl

/-- An index of the array is in point t's block iff each coordinate is in the block's range on its axis. -/
theorem mem_blk (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v29).slice (win1_6.rect t)).set ↔ _
  rw [View.set_slice_whole, Rect.mem_set_unit]
  exact Iff.rfl

/-- Every index lies in the block of the point whose block row is its row divided by 5000. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := index_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- After the region the result array holds `Node` of the arrays the region found. -/
theorem final (c : Dev nD) : (dat1 V c).arrAt 6 cfg1.N
    = Node (V c main_arg0) (V c main_v13) (V c main_v26) (V c main_v27) (V c main_v28) (V c main_arg7) :=
  (dat1 V c).arrAt_eq_of_cover 6 _ (fun t _ => flushed_eq V c t) cover

end Cert.KernelIdeal.Region1

end
-- ==== Proof.KDefs.lean ====
/-
  The idealized kernel's result as one function of the eight argument arrays.

  Between the launch and the first region the host gathers each edge's source-node row (a negative source index is
  first shifted by the number of nodes; the gather clamps) and cuts the message weight into its two 64-row halves.
  Between the regions it sums the messages into their destination rows, counts each node's in-degree in 32-bit
  integers, converts the count to a float column, and forms the column of reciprocal degrees
      inv(n) = 1 / max(deg(n), 1)  where deg(n) > 0,   0  otherwise,
  and cuts the update weight into its halves. The two regions are the whole-array functions `Msg` and `Node`.
-/
import proofs.«100682_j6528350290008_2_alg».proof.KernelIdeal
import proofs.«100682_j6528350290008_2_alg».proof.Proof.Region0
import proofs.«100682_j6528350290008_2_alg».proof.Proof.Region1
import Idealize.ShloMosaic.PureOps.Ideal

noncomputable section

namespace Cert.KernelIdeal.KDefs

open Idealize.ShloMosaic Cert.KernelIdeal Cert.KernelIdeal.Facts₀

/-- The gather's start indices: the source index, shifted by 100000 where negative, as a one-column array. -/
def srcIdx (x2 : S1200000.Idx → BitVec 32) : S1200000x1.Idx → BitVec 32 :=
  broadcastInDim S1200000x1 ![0] bcast_S1200000_S1200000x1_0
    (select (cmpi .slt x2 (broadcastInDim S1200000 ![] bcast_S_S1200000 (constantI S_ 32 0#32)))
      (addi x2 (broadcastInDim S1200000 ![] bcast_S_S1200000 (constantI S_ 32 100000#32))) x2)

/-- Each edge's source-node row. -/
def gathered (x0 : S100000x64.Idx → EReal) (x2 : S1200000.Idx → BitVec 32) : S1200000x64.Idx → EReal :=
  Host.gather gather_S100000x64_S1200000x1_S1200000x64_1_0_n_n_0_1_164
    (truncf (F := Ideal) .bf16 (φ := .f32) x0 bitsLt_bf16_f32) (srcIdx x2)

/-- Rows 0–63 of a 128-row weight. -/
def topHalf (w : S128x64.Idx → EReal) : S64x64.Idx → EReal :=
  extractStridedSlice S64x64 ![0, 0] w slices_S128x64_S64x64_0_0
/-- Rows 64–127 of a 128-row weight. -/
def bottomHalf (w : S128x64.Idx → EReal) : S64x64.Idx → EReal :=
  extractStridedSlice S64x64 ![64, 0] w slices_S128x64_S64x64_64_0

/-- The per-edge messages. -/
def messages (x0 : S100000x64.Idx → EReal) (x1 : S1200000x64.Idx → EReal) (x2 : S1200000.Idx → BitVec 32)
    (x4 : S128x64.Idx → EReal) (x5 : S64.Idx → EReal) : S1200000x64.Idx → EReal :=
  Region0.Msg (gathered x0 x2) x1 (topHalf x4) (bottomHalf x4) x5

/-- The destination indices as a one-column array. -/
def dstIdx (x3 : S1200000.Idx → BitVec 32) : S1200000x1.Idx → BitVec 32 :=
  broadcastInDim S1200000x1 ![0] bcast_S1200000_S1200000x1_0 x3

/-- Row n: the sum of the messages of the edges whose destination is n. -/
def summed (x3 : S1200000.Idx → BitVec 32) (u : S1200000x64.Idx → EReal) : S100000x64.Idx → EReal :=
  Host.scatterAdd (F := Ideal) (φ := .f32) scatter_S100000x64_S1200000x1_S1200000x64_1_0_0_1
    (broadcastInDim S100000x64 ![] bcast_S_S100000x64 (constant (F := Ideal) S_ .f32 0x00000000#32)) (dstIdx x3) u

/-- The in-degree counted in 32-bit integers. -/
def degWord (x3 : S1200000.Idx → BitVec 32) : S100000.Idx → BitVec 32 :=
  Host.scatter scatter_S100000_S1200000x1_S1200000_n_0_0_1 IntOp.addi
    (broadcastInDim S100000 ![] bcast_S_S100000 (constantI S_ 32 0#32)) (dstIdx x3)
    (broadcastInDim S1200000 ![] bcast_S_S1200000 (constantI S_ 32 1#32))

/-- The in-degree as a float column. -/
def degCol (x3 : S1200000.Idx → BitVec 32) : S100000x1.Idx → EReal :=
  shapeCast S100000x1 (sitofp (F := Ideal) .f32 (degWord x3)) shapeCasts_S100000_S100000x1

/-- The column of reciprocal degrees: 1 / max(deg, 1) where deg > 0, else 0. -/
def invDeg (x3 : S1200000.Idx → BitVec 32) : S100000x1.Idx → EReal :=
  select (cmpf .ogt (degCol x3) (broadcastInDim S100000x1 ![] bcast_S_S100000x1 (constant (F := Ideal) S_ .f32 0x00000000#32)))
    (Host.divf (broadcastInDim S100000x1 ![] bcast_S_S100000x1 (constant (F := Ideal) S_ .f32 0x3F800000#32))
      (maximumf (degCol x3) (broadcastInDim S100000x1 ![] bcast_S_S100000x1 (constant (F := Ideal) S_ .f32 0x3F800000#32))))
    (broadcastInDim S100000x1 ![] bcast_S_S100000x1 (constant (F := Ideal) S_ .f32 0x00000000#32))

/-- The kernel's result. -/
def result (x0 : S100000x64.Idx → EReal) (x1 : S1200000x64.Idx → EReal) (x2 x3 : S1200000.Idx → BitVec 32)
    (x4 : S128x64.Idx → EReal) (x5 : S64.Idx → EReal) (x6 : S128x64.Idx → EReal) (x7 : S64.Idx → EReal) :
    S100000x64.Idx → EReal :=
  Region1.Node x0 (summed x3 (messages x0 x1 x2 x4 x5)) (invDeg x3) (topHalf x6) (bottomHalf x6) x7

end Cert.KernelIdeal.KDefs

end
-- ==== Proof.KHost.lean ====
/-
  The idealized kernel's result buffer, after the run, is `KDefs.result` of the launch contents of the eight arguments.

  The buffer contents at the segment boundaries are a fold from the launch memory. Read at a buffer a stretch of host
  operations writes, the fold is that operation's result of its operands' contents; read at a buffer the stretch does
  not write, it is the contents before the stretch; a region leaves each of its output windows' arrays at its
  whole-array function of the arrays it found (`Region0.final`, `Region1.final`) and every other buffer alone.
  No host operation and no region writes an argument.
-/
import proofs.«100682_j6528350290008_2_alg».proof.Proof.Gen.KernelIdeal.Frame
import proofs.«100682_j6528350290008_2_alg».proof.Proof.KRun
import proofs.«100682_j6528350290008_2_alg».proof.Proof.Region0
import proofs.«100682_j6528350290008_2_alg».proof.Proof.Region1
import proofs.«100682_j6528350290008_2_alg».proof.Proof.KDefs
import Idealize.ShloMosaic.Lib.StableHlo.Run

set_option maxRecDepth 16384

noncomputable section

namespace Cert.KernelIdeal.KHost

open Idealize.ShloMosaic Idealize.ShloMosaic.TcCoe Idealize.SL Idealize.SL.Sem Idealize.ShloMosaic.StableHlo
open Cert.KernelIdeal Cert.KernelIdeal.Gen Cert.KernelIdeal.KDefs

variable (m : (ℓ : Loc nD τ sig) → Buf (Elt Ideal) ℓ) (ρ : Dev nD → PrngReg)

/-! ## Before the first region -/

theorem V1_arg1 (c : Dev nD) : V1 m ρ c main_arg1 = m ((c : Thread nD τ).loc main_arg1) := by
  dsimp only [V1, W1]; after_results
theorem V1_arg5 (c : Dev nD) : V1 m ρ c main_arg5 = m ((c : Thread nD τ).loc main_arg5) := by
  dsimp only [V1, W1]; after_results
theorem W1_arg0 (c : Dev nD) : W1 m ρ c (Proc.devRef .tc main_arg0) = m ((c : Thread nD τ).loc main_arg0) := by
  dsimp only [W1]; after_results
theorem W1_arg3 (c : Dev nD) : W1 m ρ c (Proc.devRef .tc main_arg3) = m ((c : Thread nD τ).loc main_arg3) := by
  dsimp only [W1]; after_results
theorem W1_arg6 (c : Dev nD) : W1 m ρ c (Proc.devRef .tc main_arg6) = m ((c : Thread nD τ).loc main_arg6) := by
  dsimp only [W1]; after_results
theorem W1_arg7 (c : Dev nD) : W1 m ρ c (Proc.devRef .tc main_arg7) = m ((c : Thread nD τ).loc main_arg7) := by
  dsimp only [W1]; after_results

/-- The first region finds each edge's gathered source row in its first window's array. -/
theorem V1_v7 (c : Dev nD) : V1 m ρ c main_v7
    = gathered (m ((c : Thread nD τ).loc main_arg0)) (m ((c : Thread nD τ).loc main_arg2)) := by
  dsimp only [V1, W1]; after_results; rfl
theorem V1_v8 (c : Dev nD) : V1 m ρ c main_v8 = topHalf (m ((c : Thread nD τ).loc main_arg4)) := by
  dsimp only [V1, W1]; after_results; rfl
theorem V1_v9 (c : Dev nD) : V1 m ρ c main_v9 = bottomHalf (m ((c : Thread nD τ).loc main_arg4)) := by
  dsimp only [V1, W1]; after_results; rfl

/-! ## After the first region -/

/-- The message array after the first region. -/
theorem W2_v10 (c : Dev nD) : W2 m ρ c (Proc.devRef .tc main_v10)
    = messages (m ((c : Thread nD τ).loc main_arg0)) (m ((c : Thread nD τ).loc main_arg1))
        (m ((c : Thread nD τ).loc main_arg2)) (m ((c : Thread nD τ).loc main_arg4)) (m ((c : Thread nD τ).loc main_arg5)) := by
  refine (W2_arr m ρ c 5).trans ?_
  rw [Region0.final (V1 m ρ) c, V1_v7, V1_arg1, V1_v8, V1_v9, V1_arg5]
  rfl

theorem W2_arg0 (c : Dev nD) : W2 m ρ c (Proc.devRef .tc main_arg0) = m ((c : Thread nD τ).loc main_arg0) :=
  (W2_of_ne m ρ c main_arg0 (by decide)).trans (W1_arg0 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)

/-! ## Before the second region -/

set_option maxHeartbeats 1000000 in
theorem V5_arg0 (c : Dev nD) : V5 m ρ c main_arg0 = m ((c : Thread nD τ).loc main_arg0) := by
  dsimp only [V5, W5, W4, W3]; after_results; exact W2_arg0 m ρ c
set_option maxHeartbeats 1000000 in
theorem V5_arg7 (c : Dev nD) : V5 m ρ c main_arg7 = m ((c : Thread nD τ).loc main_arg7) := by
  dsimp only [V5, W5, W4, W3]; after_results; exact W2_arg7 m ρ c
set_option maxHeartbeats 1000000 in
theorem V5_v27 (c : Dev nD) : V5 m ρ c main_v27 = topHalf (m ((c : Thread nD τ).loc main_arg6)) := by
  dsimp only [V5, W5, W4, W3]; after_results; rw [W2_arg6]; rfl
set_option maxHeartbeats 1000000 in
theorem V5_v28 (c : Dev nD) : V5 m ρ c main_v28 = bottomHalf (m ((c : Thread nD τ).loc main_arg6)) := by
  dsimp only [V5, W5, W4, W3]; after_results; rw [W2_arg6]; rfl

set_option maxHeartbeats 1000000 in
/-- The second region finds the neighbour sums in its second window's array. -/
theorem V5_v13 (c : Dev nD) : V5 m ρ c main_v13
    = summed (m ((c : Thread nD τ).loc main_arg3))
        (messages (m ((c : Thread nD τ).loc main_arg0)) (m ((c : Thread nD τ).loc main_arg1))
          (m ((c : Thread nD τ).loc main_arg2)) (m ((c : Thread nD τ).loc main_arg4)) (m ((c : Thread nD τ).loc main_arg5))) := by
  dsimp only [V5, W5, W4, W3]; after_results; rw [W2_arg3, W2_v10]; rfl

set_option maxHeartbeats 1000000 in
/-- The second region finds the column of reciprocal degrees in its third window's array. -/
theorem V5_v26 (c : Dev nD) : V5 m ρ c main_v26 = invDeg (m ((c : Thread nD τ).loc main_arg3)) := by
  dsimp only [V5, W5, W4, W3]; after_results; rw [W2_arg3]; rfl

/-! ## After the second region -/

/-- The result buffer's last stage is the kernel's result function of the launch contents of the arguments. -/
theorem W6_v29 (c : Dev nD) : W6 m ρ c (Proc.devRef .tc main_v29)
    = result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (KRun.W6_result m ρ c).trans ?_
  rw [Region1.final (V5 m ρ) c, V5_arg0, V5_v13, V5_v26, V5_v27, V5_v28, V5_arg7]
  rfl

end Cert.KernelIdeal.KHost

end
-- ==== Proof.RefStages.lean ====
import proofs.«100682_j6528350290008_2_alg».proof.Proof.RefReadP
import proofs.«100682_j6528350290008_2_alg».proof.Proof.Contract
import proofs.«100682_j6528350290008_2_alg».proof.Proof.Region0
import proofs.«100682_j6528350290008_2_alg».proof.Proof.Region1

/-! The reference's two dense stages are the kernel's two region functions.

The reference multiplies a row-wise concatenation [A | B] by one 128 × 64 matrix W and adds a bias; the kernel
multiplies A by the first 64 rows of W and B by the last 64 rows, adds the two products and the bias. At the ideal
values a product is an exact finite sum, and the sum over the 128 contraction coordinates splits at the joint into the
two sums over 64, so the two are the same array. The second stage also takes the maximum with zero on both sides. -/

noncomputable section

namespace Cert.RefStages

open Idealize.ShloMosaic

/-- The reference's bias row, broadcast to one row and then down the 1200000 rows, at (e, j): entry j of the bias. -/
theorem val_main_v10_ix2 (x5 : (⟨Cert.ReferenceIdeal.S64, .f32⟩ : BufTy).Contents (Elt Ideal)) (e : Fin 1200000) (j : Fin 64) :
    Cert.ReferenceIdeal.ReadP.val_main_v10 (F := Ideal) x5 (ValueIdx.ix2 e j) = x5 (ValueIdx.ix1 j) := by
  rw [Cert.ReferenceIdeal.ReadP.val_main_v10_apply, Cert.ReferenceIdeal.ReadP.val_main_v9_apply]
  exact congrArg x5 (funext fun a => match a with | ⟨0, _⟩ => rfl)

/-- The reference's message stage — the product of the joined [gathered source rows | edge features] with the
    128 × 64 weights, plus the bias — is the kernel's message function of the gathered source rows, the edge features,
    the two 64-row halves of the weights and the bias. -/
theorem val_main_v11_eq_Msg (x0 : (⟨Cert.ReferenceIdeal.S100000x64, .f32⟩ : BufTy).Contents (Elt Ideal)) (x1 : (⟨Cert.ReferenceIdeal.S1200000x64, .f32⟩ : BufTy).Contents (Elt Ideal)) (x2 : (⟨Cert.ReferenceIdeal.S1200000, .i32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) :
    Cert.ReferenceIdeal.ReadP.val_main_v11 (F := Ideal) x0 x1 x2 x4 x5
      = Cert.KernelIdeal.Region0.Msg (Cert.ReferenceIdeal.ReadP.val_main_v6 (F := Ideal) x0 x2) x1
          (extractStridedSlice Cert.KernelIdeal.S64x64 ![0, 0] x4 Cert.KernelIdeal.Facts₀.slices_S128x64_S64x64_0_0)
          (extractStridedSlice Cert.KernelIdeal.S64x64 ![64, 0] x4 Cert.KernelIdeal.Facts₀.slices_S128x64_S64x64_64_0) x5 := by
  funext i
  obtain ⟨e, j, rfl⟩ : ∃ (e : Fin 1200000) (j : Fin 64), i = ValueIdx.ix2 e j := ⟨i 0, i 1, ValueIdx.eq_ix2 i⟩
  have h8 := Cert.Contract.dotGeneral_concat_S1200000_apply (Cert.ReferenceIdeal.ReadP.val_main_v6 (F := Ideal) x0 x2) x1 x4 e j
  show (Cert.ReferenceIdeal.ReadP.val_main_v8 (F := Ideal) x0 x1 x2 x4 (ValueIdx.ix2 e j) : EReal) + Cert.ReferenceIdeal.ReadP.val_main_v10 (F := Ideal) x5 (ValueIdx.ix2 e j)
    = Cert.KernelIdeal.Region0.msgAt (Cert.ReferenceIdeal.ReadP.val_main_v6 (F := Ideal) x0 x2) x1 (extractStridedSlice Cert.KernelIdeal.S64x64 ![0, 0] x4 Cert.KernelIdeal.Facts₀.slices_S128x64_S64x64_0_0) (extractStridedSlice Cert.KernelIdeal.S64x64 ![64, 0] x4 Cert.KernelIdeal.Facts₀.slices_S128x64_S64x64_64_0) x5 e j
  rw [val_main_v10_ix2]
  unfold Cert.KernelIdeal.Region0.msgAt
  refine congrArg (· + x5 (ValueIdx.ix1 j)) ?_
  refine h8.trans ?_
  refine congrArg₂ (· + ·) (Finset.sum_congr rfl fun k _ => ?_) (Finset.sum_congr rfl fun k _ => ?_)
  · exact congrArg (_ * ·) (Cert.Contract.slice_S128x64_rows0_apply x4 k j).symm
  · exact congrArg (_ * ·) (Cert.Contract.slice_S128x64_rows64_apply x4 k j).symm

/-- The reference's second bias row, broadcast to one row and then down the 100000 rows, at (n, j): entry j of the bias. -/
theorem val_main_v29_ix2 (x7 : (⟨Cert.ReferenceIdeal.S64, .f32⟩ : BufTy).Contents (Elt Ideal)) (n : Fin 100000) (j : Fin 64) :
    Cert.ReferenceIdeal.ReadP.val_main_v29 (F := Ideal) x7 (ValueIdx.ix2 n j) = x7 (ValueIdx.ix1 j) := by
  rw [Cert.ReferenceIdeal.ReadP.val_main_v29_apply, Cert.ReferenceIdeal.ReadP.val_main_v28_apply]
  exact congrArg x7 (funext fun a => match a with | ⟨0, _⟩ => rfl)

/-- The reference's zero array at any index: the zero constant's value. -/
theorem val_main_call1_v0_ix2 (n : Fin 100000) (j : Fin 64) :
    Cert.ReferenceIdeal.ReadP.val_main_call1_v0 (F := Ideal) (ValueIdx.ix2 n j) = Ideal.ofBits .f32 0x00000000#32 := by
  rw [Cert.ReferenceIdeal.ReadP.val_main_call1_v0_apply]
  rfl

/-- The reference's last stage — the maximum with zero of the product of the joined [node features | neighbour means]
    with the 128 × 64 weights plus the bias — is the kernel's update function of the node features, the reference's own
    neighbour means, the two 64-row halves of the weights and the bias. -/
theorem val_main_v31_eq_Update (x0 : (⟨Cert.ReferenceIdeal.S100000x64, .f32⟩ : BufTy).Contents (Elt Ideal)) (x1 : (⟨Cert.ReferenceIdeal.S1200000x64, .f32⟩ : BufTy).Contents (Elt Ideal)) (x2 x3 : (⟨Cert.ReferenceIdeal.S1200000, .i32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S128x64, .f32⟩ : BufTy).Contents (Elt Ideal)) (x7 : (⟨Cert.ReferenceIdeal.S64, .f32⟩ : BufTy).Contents (Elt Ideal)) :
    Cert.ReferenceIdeal.ReadP.val_main_v31 (F := Ideal) x0 x1 x2 x3 x4 x5 x6 x7
      = Cert.KernelIdeal.Region1.Update x0 (Cert.ReferenceIdeal.ReadP.val_main_v25 (F := Ideal) x0 x1 x2 x3 x4 x5)
          (extractStridedSlice Cert.KernelIdeal.S64x64 ![0, 0] x6 Cert.KernelIdeal.Facts₀.slices_S128x64_S64x64_0_0)
          (extractStridedSlice Cert.KernelIdeal.S64x64 ![64, 0] x6 Cert.KernelIdeal.Facts₀.slices_S128x64_S64x64_64_0) x7 := by
  funext i
  obtain ⟨n, j, rfl⟩ : ∃ (n : Fin 100000) (j : Fin 64), i = ValueIdx.ix2 n j := ⟨i 0, i 1, ValueIdx.eq_ix2 i⟩
  show max ((Cert.ReferenceIdeal.ReadP.val_main_v27 (F := Ideal) x0 x1 x2 x3 x4 x5 x6 (ValueIdx.ix2 n j) : EReal) + Cert.ReferenceIdeal.ReadP.val_main_v29 (F := Ideal) x7 (ValueIdx.ix2 n j))
      (Cert.ReferenceIdeal.ReadP.val_main_call1_v0 (F := Ideal) (ValueIdx.ix2 n j))
    = Cert.KernelIdeal.Region1.updateAt x0 (Cert.ReferenceIdeal.ReadP.val_main_v25 (F := Ideal) x0 x1 x2 x3 x4 x5) (extractStridedSlice Cert.KernelIdeal.S64x64 ![0, 0] x6 Cert.KernelIdeal.Facts₀.slices_S128x64_S64x64_0_0) (extractStridedSlice Cert.KernelIdeal.S64x64 ![64, 0] x6 Cert.KernelIdeal.Facts₀.slices_S128x64_S64x64_64_0) x7 n j
  rw [val_main_v29_ix2, val_main_call1_v0_ix2]
  unfold Cert.ReferenceIdeal.ReadP.val_main_v27 Cert.ReferenceIdeal.ReadP.val_main_v26 Cert.KernelIdeal.Region1.updateAt
  generalize Cert.ReferenceIdeal.ReadP.val_main_v25 (F := Ideal) x0 x1 x2 x3 x4 x5 = hn
  refine congrArg (max · (Ideal.ofBits .f32 0x00000000#32)) ?_
  refine congrArg (· + x7 (ValueIdx.ix1 j)) ?_
  refine (Cert.Contract.dotGeneral_concat_S100000_apply x0 hn x6 n j).trans ?_
  refine congrArg₂ (· + ·) (Finset.sum_congr rfl fun k _ => ?_) (Finset.sum_congr rfl fun k _ => ?_)
  · exact congrArg (_ * ·) (Cert.Contract.slice_S128x64_rows0_apply x6 k j).symm
  · exact congrArg (_ * ·) (Cert.Contract.slice_S128x64_rows64_apply x6 k j).symm

end Cert.RefStages

end
-- ==== Proof.DegreeCount.lean ====
/-
  The in-degree of a node, counted two ways.

  A graph has 1200000 edges and 100000 nodes; `dst` holds each edge's destination as a 32-bit word, read signed.
  One program counts a node's in-degree in 32-bit integers — a scatter of ones into zeros, a left fold over the
  edges in order — and converts the count to a float; the other sums float ones over the edges that land on the
  node. Both equal `inDeg dst n`, the number of edges whose destination is `n`: an edge lands on node `n` exactly
  when its destination word, read signed, is `n` (an edge whose destination is no node's number is dropped by both);
  the integer count is at most the number of edges, below `2 ^ 31`, so no addition wraps and the signed reading of
  the final word is the count itself.

  The landing condition is proved for the two scatters' dimension numbers at symbolic sizes `N` (nodes) and `E`
  (edges); the literal sizes enter only in the last three statements.
-/
import proofs.«100682_j6528350290008_2_alg».proof.KernelIdeal
import proofs.«100682_j6528350290008_2_alg».proof.ReferenceIdeal
import Idealize.ShloMosaic.PureOps.Ideal
import Idealize.ShloMosaic.Lib.ValueIdx

namespace Cert.DegreeCount

noncomputable section

open Idealize.ShloMosaic

/-! ## The integer scatter of ones is a count -/

/-- Folding "add one at the landing element" over a list of update numbers adds, at each element, the
    number of listed updates that land on it (as a 32-bit word). -/
theorem foldl_addi_one {s si u : Shape} (d : ScatterDims s si u) {w : ℕ} (idx : IVec si w)
    [DecidableEq s.Idx] (i : s.Idx) (l : List (Fin u.numel)) (x : s.Idx → BitVec 32) :
    (l.foldl (fun r n =>
        match d.resultIdx? (u.rowMajor.symm n) idx with
        | some k => fun i' => if i' = k then IntOp.addi (r k) (1#32) else r i'
        | none => r) x) i
    = x i + BitVec.ofNat 32 ((l.filter (fun n => decide (d.resultIdx? (u.rowMajor.symm n) idx = some i))).length) := by
  induction l generalizing x with
  | nil => simp
  | cons n l ih =>
    rw [List.foldl_cons, ih, List.filter_cons]
    cases hn : d.resultIdx? (u.rowMajor.symm n) idx with
    | none => simp
    | some k =>
      by_cases hk : i = k
      · subst hk
        simp only [if_true, decide_true, List.length_cons, IntOp.addi]
        rw [BitVec.add_assoc]
        congr 1
        rw [BitVec.ofNat_add, BitVec.add_comm]
      · have : ¬ (some k = some i) := fun h => hk (Option.some.inj h).symm
        simp [hk, this]

/-- The number of positions of `List.finRange M` satisfying a predicate is the size of the set of such numbers. -/
theorem length_filter_finRange {M : ℕ} (p : Fin M → Prop) [DecidablePred p] :
    ((List.finRange M).filter (fun n => decide (p n))).length = (Finset.univ.filter p).card := by
  rw [Finset.card_def, Finset.filter_val, Fin.univ_def]
  simp only [Multiset.filter_coe, Multiset.coe_card]

/-! ## Where an edge lands: the two records -/

section Records
variable {N E : ℕ}

/-- The integer scatter's dimension numbers at symbolic sizes: no window axis, the operand's one axis inserted
    and scattered along, the index vector on axis 1. -/
abbrev dInt (wf : ScatterDims.WF (⟨1, ![N]⟩ : Shape) (⟨2, ![E, 1]⟩ : Shape) (⟨1, ![E]⟩ : Shape) [] [0] [0] 1) :
    ScatterDims (⟨1, ![N]⟩ : Shape) (⟨2, ![E, 1]⟩ : Shape) (⟨1, ![E]⟩ : Shape) :=
  ⟨[], [0], [0], 1, wf⟩

/-- The start of edge `j`'s window on the operand's one axis is the edge's destination, read signed. -/
theorem dInt_start (wf : ScatterDims.WF (⟨1, ![N]⟩ : Shape) (⟨2, ![E, 1]⟩ : Shape) (⟨1, ![E]⟩ : Shape) [] [0] [0] 1)
    (j : (⟨1, ![E]⟩ : Shape).Idx) (dst : IVec (⟨2, ![E, 1]⟩ : Shape) 32) (a : Fin 1) :
    (dInt wf).start j dst a = (dst (ValueIdx.ix2 (j 0) 0)).toInt := by
  obtain rfl : a = 0 := Subsingleton.elim _ _
  unfold ScatterDims.start
  rw [dif_pos (by simp)]
  congr 2
  funext b
  match b with
  | ⟨0, _⟩ =>
    simp [ScatterDims.siIdx, ScatterDims.siCoord]
    apply Fin.ext
    show (j _).val = (j 0).val
    exact congrArg (fun a => (j a).val) (Subsingleton.elim _ _)
  | ⟨1, _⟩ =>
    simp [ScatterDims.siIdx]
    rfl

/-- The operand's one axis is inserted: no window coordinate. -/
theorem dInt_window (wf : ScatterDims.WF (⟨1, ![N]⟩ : Shape) (⟨2, ![E, 1]⟩ : Shape) (⟨1, ![E]⟩ : Shape) [] [0] [0] 1)
    (j : (⟨1, ![E]⟩ : Shape).Idx) (a : Fin 1) : (dInt wf).window j a = 0 := by
  obtain rfl : a = 0 := Subsingleton.elim _ _
  unfold ScatterDims.window
  rw [dif_neg]
  simp [Shape.kept]

/-- Edge `j` lands on node `i` exactly when its destination, read signed, is `i`'s number. -/
theorem dInt_resultIdx_iff (wf : ScatterDims.WF (⟨1, ![N]⟩ : Shape) (⟨2, ![E, 1]⟩ : Shape) (⟨1, ![E]⟩ : Shape) [] [0] [0] 1)
    (j : (⟨1, ![E]⟩ : Shape).Idx) (dst : IVec (⟨2, ![E, 1]⟩ : Shape) 32) (i : (⟨1, ![N]⟩ : Shape).Idx) :
    (dInt wf).resultIdx? j dst = some i ↔ (dst (ValueIdx.ix2 (j 0) 0)).toInt = ((i 0).val : ℤ) := by
  have hi : ((i 0).val : ℤ) < (N : ℤ) := by exact_mod_cast (i 0).isLt
  unfold ScatterDims.resultIdx?
  constructor
  · intro h
    split at h
    · rename_i hc
      have h0 := hc 0
      rw [dInt_start, dInt_window] at h0
      have := congrFun (Option.some.inj h) 0
      rw [← this]
      simp only [dInt_start, dInt_window]
      omega
    · exact absurd h (by simp)
  · intro h
    rw [dif_pos]
    · congr 1
      funext a
      obtain rfl : a = 0 := Subsingleton.elim _ _
      apply Fin.ext
      simp only [dInt_start, dInt_window, h]
      simp
    · intro a
      obtain rfl : a = 0 := Subsingleton.elim _ _
      rw [dInt_start, dInt_window, h]
      constructor
      · simp
      · simpa using hi

end Records

section Records2
variable {N E : ℕ}

/-- The float scatter's dimension numbers at symbolic sizes: the update's axis 1 (extent one) is the window axis, the
    operand's axis 0 inserted and scattered along, the index vector on axis 1. -/
abbrev dFlt (wf : ScatterDims.WF (⟨2, ![N, 1]⟩ : Shape) (⟨2, ![E, 1]⟩ : Shape) (⟨2, ![E, 1]⟩ : Shape) [1] [0] [0] 1) :
    ScatterDims (⟨2, ![N, 1]⟩ : Shape) (⟨2, ![E, 1]⟩ : Shape) (⟨2, ![E, 1]⟩ : Shape) :=
  ⟨[1], [0], [0], 1, wf⟩

/-- On the scattered axis the window starts at the edge's destination, read signed. -/
theorem dFlt_start0 (wf : ScatterDims.WF (⟨2, ![N, 1]⟩ : Shape) (⟨2, ![E, 1]⟩ : Shape) (⟨2, ![E, 1]⟩ : Shape) [1] [0] [0] 1)
    (j : (⟨2, ![E, 1]⟩ : Shape).Idx) (dst : IVec (⟨2, ![E, 1]⟩ : Shape) 32) :
    (dFlt wf).start j dst 0 = (dst (ValueIdx.ix2 (j 0) 0)).toInt := by
  unfold ScatterDims.start
  rw [dif_pos (by simp)]
  congr 2
  funext b
  match b with
  | ⟨0, _⟩ =>
    simp [ScatterDims.siIdx, ScatterDims.siCoord]
    apply Fin.ext
    show (j _).val = (j 0).val
    exact congrArg (fun a => (j a).val) (by rfl)
  | ⟨1, _⟩ =>
    simp [ScatterDims.siIdx]
    rfl

/-- On the other axis nothing is scattered: the window starts at 0. -/
theorem dFlt_start1 (wf : ScatterDims.WF (⟨2, ![N, 1]⟩ : Shape) (⟨2, ![E, 1]⟩ : Shape) (⟨2, ![E, 1]⟩ : Shape) [1] [0] [0] 1)
    (j : (⟨2, ![E, 1]⟩ : Shape).Idx) (dst : IVec (⟨2, ![E, 1]⟩ : Shape) 32) :
    (dFlt wf).start j dst 1 = 0 := by
  unfold ScatterDims.start
  rw [dif_neg (by simp)]

/-- The scattered axis is inserted: no window coordinate. -/
theorem dFlt_window0 (wf : ScatterDims.WF (⟨2, ![N, 1]⟩ : Shape) (⟨2, ![E, 1]⟩ : Shape) (⟨2, ![E, 1]⟩ : Shape) [1] [0] [0] 1)
    (j : (⟨2, ![E, 1]⟩ : Shape).Idx) : (dFlt wf).window j 0 = 0 := by
  unfold ScatterDims.window
  rw [dif_neg]
  simp [Shape.kept]

/-- The window axis has extent one: its coordinate is 0. -/
theorem dFlt_window1 (wf : ScatterDims.WF (⟨2, ![N, 1]⟩ : Shape) (⟨2, ![E, 1]⟩ : Shape) (⟨2, ![E, 1]⟩ : Shape) [1] [0] [0] 1)
    (j : (⟨2, ![E, 1]⟩ : Shape).Idx) : (dFlt wf).window j 1 = 0 := by
  have h1 : (j 1).val = 0 := by have := ValueIdx.idx2_lt1 j; omega
  unfold ScatterDims.window
  split
  · exact (congrArg (fun a => (j a).val) (by rfl)).trans h1
  · rfl

/-- Edge `j` lands on node `i` exactly when its destination, read signed, is `i`'s number. -/
theorem dFlt_resultIdx_iff (wf : ScatterDims.WF (⟨2, ![N, 1]⟩ : Shape) (⟨2, ![E, 1]⟩ : Shape) (⟨2, ![E, 1]⟩ : Shape) [1] [0] [0] 1)
    (j : (⟨2, ![E, 1]⟩ : Shape).Idx) (dst : IVec (⟨2, ![E, 1]⟩ : Shape) 32) (i : (⟨2, ![N, 1]⟩ : Shape).Idx) :
    (dFlt wf).resultIdx? j dst = some i ↔ (dst (ValueIdx.ix2 (j 0) 0)).toInt = ((i 0).val : ℤ) := by
  have hi : ((i 0).val : ℤ) < (N : ℤ) := by exact_mod_cast ValueIdx.idx2_lt0 i
  unfold ScatterDims.resultIdx?
  constructor
  · intro h
    split at h
    · rename_i hc
      have h0 := hc 0
      rw [dFlt_start0, dFlt_window0] at h0
      have := congrFun (Option.some.inj h) 0
      rw [← this]
      simp only [dFlt_start0, dFlt_window0]
      omega
    · exact absurd h (by simp)
  · intro h
    have hall : ∀ a, 0 ≤ (dFlt wf).start j dst a + ((dFlt wf).window j a : ℤ) ∧
        (dFlt wf).start j dst a + ((dFlt wf).window j a : ℤ) < ((⟨2, ![N, 1]⟩ : Shape).size a : ℤ) := by
      intro a
      match a with
      | ⟨0, _⟩ =>
        show 0 ≤ (dFlt wf).start j dst 0 + ((dFlt wf).window j 0 : ℤ) ∧
          (dFlt wf).start j dst 0 + ((dFlt wf).window j 0 : ℤ) < (N : ℤ)
        rw [dFlt_start0, dFlt_window0, h]
        constructor
        · simp
        · simpa using hi
      | ⟨1, _⟩ =>
        show 0 ≤ (dFlt wf).start j dst 1 + ((dFlt wf).window j 1 : ℤ) ∧
          (dFlt wf).start j dst 1 + ((dFlt wf).window j 1 : ℤ) < ((1 : ℕ) : ℤ)
        rw [dFlt_start1, dFlt_window1]
        simp
    rw [dif_pos hall]
    congr 1
    funext a
    match a with
    | ⟨0, _⟩ =>
      apply Fin.ext
      show ((dFlt wf).start j dst 0 + ((dFlt wf).window j 0 : ℤ)).toNat = (i 0).val
      rw [dFlt_start0, dFlt_window0, h]
      simp
    | ⟨1, _⟩ =>
      apply Fin.ext
      show ((dFlt wf).start j dst 1 + ((dFlt wf).window j 1 : ℤ)).toNat = (i 1).val
      rw [dFlt_start1, dFlt_window1]
      have := ValueIdx.idx2_lt1 i
      simp
      omega

end Records2

/-! ## Counting along the index bijections -/

section Count
variable {N E : ℕ}

/-- A rank-1 index is its coordinate. -/
def idx1Equiv : (⟨1, ![E]⟩ : Shape).Idx ≃ Fin E where
  toFun j := j 0
  invFun e := ValueIdx.ix1 e
  left_inv j := (ValueIdx.eq_ix1 j).symm
  right_inv _ := rfl

/-- An index of an `E × 1` array is its first coordinate. -/
def idx21Equiv : (⟨2, ![E, 1]⟩ : Shape).Idx ≃ Fin E where
  toFun j := j 0
  invFun e := ValueIdx.ix2 e 0
  left_inv j := by
    have h1 : (j 1).val = 0 := by have := ValueIdx.idx2_lt1 j; omega
    funext a
    match a with
    | ⟨0, _⟩ => rfl
    | ⟨1, _⟩ => exact Fin.ext h1.symm
  right_inv _ := rfl

/-- A word below `2 ^ 31` read signed is itself. -/
theorem toInt_ofNat_small (c : ℕ) (hc : c < 2 ^ 31) : (BitVec.ofNat 32 c).toInt = (c : ℤ) := by
  have h1 : (BitVec.ofNat 32 c).toNat = c := by
    rw [BitVec.toNat_ofNat]; exact Nat.mod_eq_of_lt (by omega)
  rw [BitVec.toInt_eq_toNat_of_lt (by rw [h1]; omega), h1]

/-- A sum of ones over a finite set is its size. -/
theorem sum_ones_ereal {α : Type} (s : Finset α) : (∑ _j ∈ s, (1 : EReal)) = ((s.card : ℝ) : EReal) := by
  classical
  induction s using Finset.induction_on with
  | empty => simp
  | insert a s ha ih =>
    rw [Finset.sum_insert ha, ih, Finset.card_insert_of_notMem ha, Nat.cast_succ, EReal.coe_add, EReal.coe_one, add_comm]

/-- The integer scatter of ones into zeros holds, at node `i`, the number of edges whose destination is `i`. -/
theorem scatter_count_int (wf : ScatterDims.WF (⟨1, ![N]⟩ : Shape) (⟨2, ![E, 1]⟩ : Shape) (⟨1, ![E]⟩ : Shape) [] [0] [0] 1)
    (dst : IVec (⟨2, ![E, 1]⟩ : Shape) 32) (i : (⟨1, ![N]⟩ : Shape).Idx) :
    Host.scatter (dInt wf) IntOp.addi (fun _ => 0#32) dst (fun _ => 1#32) i
      = BitVec.ofNat 32 (Finset.univ.filter (fun e : Fin E => (dst (ValueIdx.ix2 e 0)).toInt = ((i 0).val : ℤ))).card := by
  unfold Host.scatter
  refine (foldl_addi_one (dInt wf) dst i _ _).trans ?_
  rw [length_filter_finRange (fun n => (dInt wf).resultIdx? ((⟨1, ![E]⟩ : Shape).rowMajor.symm n) dst = some i), BitVec.zero_add]
  congr 1
  refine Finset.card_equiv ((⟨1, ![E]⟩ : Shape).rowMajor.symm.trans idx1Equiv) (fun n => ?_)
  simp only [Finset.mem_filter, Finset.mem_univ, true_and, dInt_resultIdx_iff]
  rfl

/-- The float scatter of ones into zeros holds, at node `i`, the number of edges whose destination is `i`. -/
theorem scatter_count_flt (wf : ScatterDims.WF (⟨2, ![N, 1]⟩ : Shape) (⟨2, ![E, 1]⟩ : Shape) (⟨2, ![E, 1]⟩ : Shape) [1] [0] [0] 1)
    (dst : IVec (⟨2, ![E, 1]⟩ : Shape) 32) (i : (⟨2, ![N, 1]⟩ : Shape).Idx) :
    Ideal.hostScatterAdd (dFlt wf) (fun _ => (0 : EReal)) dst (fun _ => (1 : EReal)) i
      = (((Finset.univ.filter (fun e : Fin E => (dst (ValueIdx.ix2 e 0)).toInt = ((i 0).val : ℤ))).card : ℝ) : EReal) := by
  unfold Ideal.hostScatterAdd
  rw [zero_add, sum_ones_ereal]
  congr 2
  refine Finset.card_equiv idx21Equiv (fun j => ?_)
  simp only [Finset.mem_filter, Finset.mem_univ, true_and, dFlt_resultIdx_iff]
  rfl

end Count

/-! ## The two programs' in-degree -/

/-- The in-degree of node `n`: the number of edges whose destination word, read signed, is `n`. An edge whose
    destination is no node's number is counted nowhere. -/
def inDeg (dst : Cert.KernelIdeal.S1200000x1.Idx → BitVec 32) (n : Fin 100000) : ℕ :=
  (Finset.univ.filter (fun e : Fin 1200000 => (dst (ValueIdx.ix2 e 0)).toInt = (n.val : ℤ))).card

theorem inDeg_le (dst : Cert.KernelIdeal.S1200000x1.Idx → BitVec 32) (n : Fin 100000) : inDeg dst n ≤ 1200000 := by
  unfold inDeg
  calc _ ≤ (Finset.univ : Finset (Fin 1200000)).card := Finset.card_filter_le _ _
    _ = 1200000 := by rw [Finset.card_univ, Fintype.card_fin]

/-- At the ideal instance the signed conversion of a word is the word's signed value. -/
theorem sitofp_ideal (b : BitVec 32) : FloatOps.sitofp (F := Ideal) .f32 b = ((b.toInt : ℝ) : EReal) := rfl

/-- The kernel's integer count, converted, is the in-degree: the count is at most the number of edges, far below
    `2 ^ 31`, so the 32-bit additions never wrap. -/
theorem kernel_degree [Cert.KernelIdeal.Facts₀] (dst : Cert.KernelIdeal.S1200000x1.Idx → BitVec 32) (n : Fin 100000) :
    FloatOps.sitofp (F := Ideal) .f32
      (Host.scatter Cert.KernelIdeal.scatter_S100000_S1200000x1_S1200000_n_0_0_1 IntOp.addi (fun _ => 0#32) dst (fun _ => 1#32) (ValueIdx.ix1 n))
      = ((inDeg dst n : ℝ) : EReal) := by
  have hd : Cert.KernelIdeal.scatter_S100000_S1200000x1_S1200000_n_0_0_1
      = dInt (N := 100000) (E := 1200000) Cert.KernelIdeal.Facts₀.scatter_S100000_S1200000x1_S1200000_n_0_0_1_wf := rfl
  have hc : (Finset.univ.filter (fun e : Fin 1200000 => (dst (ValueIdx.ix2 e 0)).toInt = (((ValueIdx.ix1 n : Cert.KernelIdeal.S100000.Idx) 0).val : ℤ))).card
      = inDeg dst n := rfl
  have hlt : inDeg dst n < 2 ^ 31 := lt_of_le_of_lt (inDeg_le dst n) (by norm_num)
  rw [sitofp_ideal, hd, scatter_count_int, hc, toInt_ofNat_small _ hlt, Int.cast_natCast]

/-- At the ideal instance the host's accumulating float scatter is the exact sum. -/
theorem hostScatterAdd_ideal {s si u : Shape} {w : ℕ} (d : ScatterDims s si u) (x : s.Idx → EReal) (idx : IVec si w)
    (upd : u.Idx → EReal) :
    Host.scatterAdd (F := Ideal) (φ := .f32) d x idx upd = Ideal.hostScatterAdd d x idx upd := rfl

/-- The reference's float sum of ones is the in-degree. -/
theorem reference_degree [Cert.ReferenceIdeal.Facts₀] (dst : Cert.ReferenceIdeal.S1200000x1.Idx → BitVec 32) (n : Fin 100000) :
    Host.scatterAdd (F := Ideal) (φ := .f32) Cert.ReferenceIdeal.scatter_S100000x1_S1200000x1_S1200000x1_1_0_0_1
      (fun _ => (0 : EReal)) dst (fun _ => (1 : EReal)) (ValueIdx.ix2 n 0)
      = ((inDeg dst n : ℝ) : EReal) := by
  have hd : Cert.ReferenceIdeal.scatter_S100000x1_S1200000x1_S1200000x1_1_0_0_1
      = dFlt (N := 100000) (E := 1200000) Cert.ReferenceIdeal.Facts₀.scatter_S100000x1_S1200000x1_S1200000x1_1_0_0_1_wf := rfl
  have hc : (Finset.univ.filter (fun e : Fin 1200000 => (dst (ValueIdx.ix2 e 0)).toInt = (((ValueIdx.ix2 n 0 : Cert.ReferenceIdeal.S100000x1.Idx) 0).val : ℤ))).card
      = inDeg dst n := rfl
  rw [hostScatterAdd_ideal, hd, scatter_count_flt, hc]

end

end Cert.DegreeCount
-- ==== Proof.DegreeCols.lean ====
/-
  The two programs' degree columns, read at one node.

  Both programs hold each node's in-degree as a float column of shape `[100000, 1]`. One counts in 32-bit integers
  (a scatter of ones into zeros), converts the count to a float and reshapes `[100000]` to `[100000, 1]`; the other
  sums float ones (the word `0x3F800000`) into float zeros. Read at `(n, 0)`, each is `inDeg` of the destination
  indices at `n`: the number of edges whose destination is `n`.
-/
import proofs.«100682_j6528350290008_2_alg».proof.Proof.RefReadP
import proofs.«100682_j6528350290008_2_alg».proof.Proof.KDefs
import proofs.«100682_j6528350290008_2_alg».proof.Proof.DegreeCount
import Idealize.ShloMosaic.Lib.ValueIdx
import Idealize.ShloMosaic.Lib.Pipeline.Value
import Idealize.ShloMosaic.Lib.ValueLayout

namespace Cert.DegreeCols

noncomputable section

open Idealize.ShloMosaic

/-! ## Small generic facts (symbolic shapes) -/

/-- A scalar integer constant broadcast to any shape is that word everywhere. -/
theorem bcast_constantI {t : Shape} (h : (⟨0, ![]⟩ : Shape).BroadcastsInDim t ![]) (c : BitVec 32) :
    broadcastInDim t ![] h (constantI (⟨0, ![]⟩ : Shape) 32 c) = fun _ => c := rfl

/-- An `[a]` array cast to the column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The binary32 word `0x3F800000` (sign 0, exponent field 127, fraction 0) denotes `1`. -/
theorem one_f32 : Ideal.ofBits .f32 0x3F800000#32 = 1 := by
  simp [Ideal.ofBits, Ideal.ieee, -EReal.coe_mul]
  norm_num

/-! ## The two degree columns -/

/-- The kernel's degree column at `(n, 0)` is the in-degree of `n`: the column is the integer count converted to a
    float and reshaped from `[100000]` to `[100000, 1]`, and the count is a scatter of ones into zeros. -/
theorem kernel_degCol (x3 : (⟨Cert.ReferenceIdeal.S1200000, .i32⟩ : BufTy).Contents (Elt Ideal)) (n : Fin 100000) :
    Cert.KernelIdeal.KDefs.degCol x3 (ValueIdx.ix2 n (0 : Fin 1))
      = ((Cert.DegreeCount.inDeg (Cert.KernelIdeal.KDefs.dstIdx x3) n : ℝ) : EReal) := by
  rw [Cert.KernelIdeal.KDefs.degCol, shapeCast_a_a1_apply, ValueIdx.sitofp_apply, Cert.KernelIdeal.KDefs.degWord,
    bcast_constantI, bcast_constantI]
  exact Cert.DegreeCount.kernel_degree _ n

/-- The reference's degree column at `(n, 0)` is the same number: a float sum of ones, over the edges landing on
    `n`, into zero. -/
theorem reference_degCol (x3 : (⟨Cert.ReferenceIdeal.S1200000, .i32⟩ : BufTy).Contents (Elt Ideal)) (n : Fin 100000) :
    Cert.ReferenceIdeal.ReadP.val_main_v18 (F := Ideal) x3 (ValueIdx.ix2 n (0 : Fin 1))
      = ((Cert.DegreeCount.inDeg (Cert.KernelIdeal.KDefs.dstIdx x3) n : ℝ) : EReal) := by
  have h16 : Cert.ReferenceIdeal.ReadP.val_main_v16 (F := Ideal) = fun _ => (0 : EReal) := by
    funext i
    rw [Cert.ReferenceIdeal.ReadP.val_main_v16_apply, Cert.ReferenceIdeal.ReadP.val_main_cst_2_apply]
    exact Ideal.ofBits_zero_f32
  have h15 : Cert.ReferenceIdeal.ReadP.val_main_v15 (F := Ideal) = fun _ => (1 : EReal) := by
    funext i
    rw [Cert.ReferenceIdeal.ReadP.val_main_v15_apply, Cert.ReferenceIdeal.ReadP.val_main_cst_1_apply]
    exact one_f32
  have h17 : Cert.ReferenceIdeal.ReadP.val_main_v17 (F := Ideal) x3 = Cert.KernelIdeal.KDefs.dstIdx x3 := rfl
  rw [Cert.ReferenceIdeal.ReadP.val_main_v18, h16, h17, h15]
  exact Cert.DegreeCount.reference_degree _ n

end

end Cert.DegreeCols
-- ==== Proof.Mean.lean ====
import proofs.«100682_j6528350290008_2_alg».proof.Proof.RefReadP
import proofs.«100682_j6528350290008_2_alg».proof.Proof.KDefs
import proofs.«100682_j6528350290008_2_alg».proof.Proof.DegreeCount
import proofs.«100682_j6528350290008_2_alg».proof.Proof.DegreeCols
import Idealize.ShloMosaic.PureOps.Ideal.Laws
import Idealize.ShloMosaic.Lib.ValueIdx
import Idealize.ShloMosaic.Lib.Pipeline.Value
import Idealize.ShloMosaic.Lib.ValueLayout

/-! A row's neighbour sum times the row's reciprocal degree is the reference's neighbour mean.

Write c for a node's in-degree, a natural number read as a real. The kernel multiplies the row's sum s by
(if c > 0 then 1 / max(c, 1) else 0); the reference takes (if c > 0 then s / max(c, 1) else 0). On the extended reals
the two agree for every s, the infinities included: at c = 0 both are 0, since s · 0 = 0; at c ≥ 1 the maximum is c,
and a quotient by a nonzero real is the product with its reciprocal. -/

noncomputable section

namespace Cert.Mean

open Idealize.ShloMosaic

/-- The 32-bit pattern 0x3F800000 is the float 1. -/
theorem ofBits_one_f32 : Ideal.ofBits .f32 0x3F800000#32 = 1 := by
  simp [Ideal.ofBits, Ideal.ieee, -EReal.coe_mul]
  norm_num

/-- The comparison "greater than" is 1 where it holds … -/
theorem cmp_ogt_of_lt {x y : EReal} (h : y < x) : Ideal.cmp .ogt x y = 1#1 := by
  show BitVec.ofBool (decide (y < x)) = 1#1
  rw [decide_eq_true h]
  rfl
/-- … and 0 where it does not. -/
theorem cmp_ogt_of_not_lt {x y : EReal} (h : ¬ y < x) : Ideal.cmp .ogt x y = 0#1 := by
  show BitVec.ofBool (decide (y < x)) = 0#1
  rw [decide_eq_false h]
  rfl

/-- The scalar law: for a count c and any extended real s,
    s · (if c > 0 then 1 / max(c, 1) else 0) = (if c > 0 then s / max(c, 1) else 0). -/
theorem mean_law (s : EReal) (c : ℕ) :
    s * Scalar.select (Ideal.cmp .ogt ((c : ℝ) : EReal) (Ideal.ofBits .f32 0x00000000#32))
          (Ideal.div (Ideal.ofBits .f32 0x3F800000#32) (max ((c : ℝ) : EReal) (Ideal.ofBits .f32 0x3F800000#32)))
          (Ideal.ofBits .f32 0x00000000#32)
      = Scalar.select (Ideal.cmp .ogt ((c : ℝ) : EReal) (Ideal.ofBits .f32 0x00000000#32))
          (Ideal.div s (max ((c : ℝ) : EReal) (Ideal.ofBits .f32 0x3F800000#32)))
          (Ideal.ofBits .f32 0x00000000#32) := by
  rw [Ideal.ofBits_zero_f32, ofBits_one_f32]
  rcases Nat.eq_zero_or_pos c with h | h
  · subst h
    have hc : Ideal.cmp .ogt (((0 : ℕ) : ℝ) : EReal) 0 = 0#1 :=
      cmp_ogt_of_not_lt (by rw [Nat.cast_zero, EReal.coe_zero]; exact lt_irrefl _)
    rw [hc, ValueIdx.select_zero, ValueIdx.select_zero, mul_zero]
  · have hpos : (0 : ℝ) < (c : ℝ) := by exact_mod_cast h
    have hc : Ideal.cmp .ogt ((c : ℝ) : EReal) 0 = 1#1 := cmp_ogt_of_lt (by exact_mod_cast hpos)
    have hmax : max ((c : ℝ) : EReal) 1 = ((c : ℝ) : EReal) :=
      max_eq_left (by have : (1 : ℝ) ≤ (c : ℝ) := by exact_mod_cast h
                      exact_mod_cast this)
    rw [hc, ValueIdx.select_one, ValueIdx.select_one, hmax, Ideal.div_coe hpos.ne', Ideal.div_coe hpos.ne', one_mul]

/-- The reference's condition, broadcast along the 64 columns, at (n, k): the degree column's entry at (n, 0) compared
    with zero. -/
theorem ref_cond (x3 : (⟨Cert.ReferenceIdeal.S1200000, .i32⟩ : BufTy).Contents (Elt Ideal)) (n : Fin 100000) (k : Fin 64) :
    Cert.ReferenceIdeal.ReadP.val_main_call0_v1 (F := Ideal) x3 (ValueIdx.ix2 n k)
      = Ideal.cmp .ogt (Cert.ReferenceIdeal.ReadP.val_main_v18 (F := Ideal) x3 (ValueIdx.ix2 n (0 : Fin 1))) (Ideal.ofBits .f32 0x00000000#32) := by
  rw [Cert.ReferenceIdeal.ReadP.val_main_call0_v1_apply, Cert.ReferenceIdeal.ReadP.val_main_v20_apply, Cert.ReferenceIdeal.ReadP.val_main_v19_apply, Cert.ReferenceIdeal.ReadP.val_main_cst_3_apply]
  have e : Cert.ReferenceIdeal.ReadP.idx_main_call0_v1 (ValueIdx.ix2 n k) = ValueIdx.ix2 n (0 : Fin 1) :=
    funext fun a => match a with | ⟨0, _⟩ => rfl | ⟨1, _⟩ => rfl
  rw [e]
  rfl

/-- The reference's divisor, broadcast along the 64 columns, at (n, k): the maximum of the degree column's entry at
    (n, 0) and one. -/
theorem ref_den (x3 : (⟨Cert.ReferenceIdeal.S1200000, .i32⟩ : BufTy).Contents (Elt Ideal)) (n : Fin 100000) (k : Fin 64) :
    Cert.ReferenceIdeal.ReadP.val_main_v23 (F := Ideal) x3 (ValueIdx.ix2 n k)
      = max (Cert.ReferenceIdeal.ReadP.val_main_v18 (F := Ideal) x3 (ValueIdx.ix2 n (0 : Fin 1))) (Ideal.ofBits .f32 0x3F800000#32) := by
  rw [Cert.ReferenceIdeal.ReadP.val_main_v23_apply, Cert.ReferenceIdeal.ReadP.val_main_v22_apply, Cert.ReferenceIdeal.ReadP.val_main_v21_apply, Cert.ReferenceIdeal.ReadP.val_main_cst_4_apply]
  have e : Cert.ReferenceIdeal.ReadP.idx_main_v23 (ValueIdx.ix2 n k) = ValueIdx.ix2 n (0 : Fin 1) :=
    funext fun a => match a with | ⟨0, _⟩ => rfl | ⟨1, _⟩ => rfl
  rw [e]
  rfl

/-- The reference's zero array at any index: the zero constant's value. -/
theorem ref_zero (n : Fin 100000) (k : Fin 64) :
    Cert.ReferenceIdeal.ReadP.val_main_call0_v2 (F := Ideal) (ValueIdx.ix2 n k) = Ideal.ofBits .f32 0x00000000#32 := by
  rw [Cert.ReferenceIdeal.ReadP.val_main_call0_v2_apply, Cert.ReferenceIdeal.ReadP.val_main_call0_v0_apply, Cert.ReferenceIdeal.ReadP.val_main_cst_5_apply]
  rfl

/-- The kernel's reciprocal-degree column at (n, 0), from its degree column there. -/
theorem ker_inv (x3 : Cert.KernelIdeal.S1200000.Idx → BitVec 32) (n : Fin 100000) :
    Cert.KernelIdeal.KDefs.invDeg x3 (ValueIdx.ix2 n (0 : Fin 1))
      = Scalar.select (Ideal.cmp .ogt (Cert.KernelIdeal.KDefs.degCol x3 (ValueIdx.ix2 n (0 : Fin 1))) (Ideal.ofBits .f32 0x00000000#32))
          (Ideal.div (Ideal.ofBits .f32 0x3F800000#32) (max (Cert.KernelIdeal.KDefs.degCol x3 (ValueIdx.ix2 n (0 : Fin 1))) (Ideal.ofBits .f32 0x3F800000#32)))
          (Ideal.ofBits .f32 0x00000000#32) := by
  unfold Cert.KernelIdeal.KDefs.invDeg
  generalize Cert.KernelIdeal.KDefs.degCol x3 = d
  rfl

/-- The neighbour sum scaled by the reciprocal-degree column is the reference's neighbour mean: the reference's
    "sum divided by max(degree, 1) where the degree is positive, else zero". -/
theorem scaled_eq_mean (x0 : (⟨Cert.ReferenceIdeal.S100000x64, .f32⟩ : BufTy).Contents (Elt Ideal)) (x1 : (⟨Cert.ReferenceIdeal.S1200000x64, .f32⟩ : BufTy).Contents (Elt Ideal)) (x2 x3 : (⟨Cert.ReferenceIdeal.S1200000, .i32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) :
    Cert.KernelIdeal.Region1.scaled (Cert.ReferenceIdeal.ReadP.val_main_v14 (F := Ideal) x0 x1 x2 x3 x4 x5) (Cert.KernelIdeal.KDefs.invDeg x3)
      = Cert.ReferenceIdeal.ReadP.val_main_v25 (F := Ideal) x0 x1 x2 x3 x4 x5 := by
  funext i
  obtain ⟨n, k, rfl⟩ : ∃ (n : Fin 100000) (k : Fin 64), i = ValueIdx.ix2 n k := ⟨i 0, i 1, ValueIdx.eq_ix2 i⟩
  rw [Cert.ReferenceIdeal.ReadP.val_main_v25_apply, Cert.ReferenceIdeal.ReadP.val_main_v24_apply, ref_cond, ref_den, ref_zero]
  unfold Cert.KernelIdeal.Region1.scaled
  generalize Cert.ReferenceIdeal.ReadP.val_main_v14 (F := Ideal) x0 x1 x2 x3 x4 x5 (ValueIdx.ix2 n k) = s
  show s * Cert.KernelIdeal.KDefs.invDeg x3 (ValueIdx.ix2 n (0 : Fin 1)) = _
  rw [ker_inv, Cert.DegreeCols.kernel_degCol x3 n, Cert.DegreeCols.reference_degCol x3 n]
  exact mean_law s (Cert.DegreeCount.inDeg (Cert.KernelIdeal.KDefs.dstIdx x3) n)

end Cert.Mean

end
-- ==== Proof.Bridge.lean ====
/-
  The kernel's result function is the reference's last stage.

  Three equalities of whole arrays, each a function of the argument arrays:
    * the gathered source rows agree (the kernel's change of float format before the gather is the identity on the
      extended reals, and both programs compute the start indices by the same operations);
    * the neighbour sums agree, since the messages do (a 128-term product of concatenated operands is the sum of the
      two 64-term products) and both programs add them into the same rows;
    * the neighbour sum scaled by the reciprocal in-degree is the reference's neighbour mean.
  The update then applies the same function to the same two arrays.
-/
import proofs.«100682_j6528350290008_2_alg».proof.Proof.KDefs
import proofs.«100682_j6528350290008_2_alg».proof.Proof.RefStages
import proofs.«100682_j6528350290008_2_alg».proof.Proof.Mean
set_option maxRecDepth 16384

noncomputable section

namespace Cert.Bridge

open Idealize.ShloMosaic Cert.KernelIdeal.KDefs
open Cert.ReferenceIdeal.ReadP (val_main_v5 val_main_v6 val_main_v11 val_main_v12 val_main_v13 val_main_v14 val_main_v25 val_main_v31)

/-- The two programs gather the same rows: the kernel's change of float format before the gather is the identity on
    the extended reals, and both compute the start indices by the same operations. -/
theorem gathered_eq (x0 : (⟨Cert.ReferenceIdeal.S100000x64, .f32⟩ : BufTy).Contents (Elt Ideal))
    (x2 : (⟨Cert.ReferenceIdeal.S1200000, .i32⟩ : BufTy).Contents (Elt Ideal)) :
    gathered x0 x2 = val_main_v6 (F := Ideal) x0 x2 := rfl

/-- The neighbour sums agree: both programs add the same messages (`val_main_v11_eq_Msg`) into the same rows. -/
theorem summed_eq (x0 : (⟨Cert.ReferenceIdeal.S100000x64, .f32⟩ : BufTy).Contents (Elt Ideal))
    (x1 : (⟨Cert.ReferenceIdeal.S1200000x64, .f32⟩ : BufTy).Contents (Elt Ideal))
    (x2 x3 : (⟨Cert.ReferenceIdeal.S1200000, .i32⟩ : BufTy).Contents (Elt Ideal))
    (x4 : (⟨Cert.ReferenceIdeal.S128x64, .f32⟩ : BufTy).Contents (Elt Ideal))
    (x5 : (⟨Cert.ReferenceIdeal.S64, .f32⟩ : BufTy).Contents (Elt Ideal)) :
    summed x3 (messages x0 x1 x2 x4 x5) = val_main_v14 (F := Ideal) x0 x1 x2 x3 x4 x5 := by
  unfold val_main_v14
  rw [Cert.RefStages.val_main_v11_eq_Msg, ← gathered_eq]
  rfl

/-- The kernel's result function is the reference's last stage. -/
theorem result_eq (x0 : (⟨Cert.ReferenceIdeal.S100000x64, .f32⟩ : BufTy).Contents (Elt Ideal))
    (x1 : (⟨Cert.ReferenceIdeal.S1200000x64, .f32⟩ : BufTy).Contents (Elt Ideal))
    (x2 x3 : (⟨Cert.ReferenceIdeal.S1200000, .i32⟩ : BufTy).Contents (Elt Ideal))
    (x4 : (⟨Cert.ReferenceIdeal.S128x64, .f32⟩ : BufTy).Contents (Elt Ideal))
    (x5 : (⟨Cert.ReferenceIdeal.S64, .f32⟩ : BufTy).Contents (Elt Ideal))
    (x6 : (⟨Cert.ReferenceIdeal.S128x64, .f32⟩ : BufTy).Contents (Elt Ideal))
    (x7 : (⟨Cert.ReferenceIdeal.S64, .f32⟩ : BufTy).Contents (Elt Ideal)) :
    result x0 x1 x2 x3 x4 x5 x6 x7 = val_main_v31 (F := Ideal) x0 x1 x2 x3 x4 x5 x6 x7 := by
  rw [Cert.RefStages.val_main_v31_eq_Update, ← Cert.Mean.scaled_eq_mean, ← summed_eq]
  rfl

end Cert.Bridge

end
-- ==== Proof.lean ====
/-
  The certificate of the two-layer message-passing kernel against its reference, over the extended reals.

  Both programs compute, for every node n and output column j,
      h(n, j) = max( ∑ₖ nf(n, k) · Wₐ(k, j) + ∑ₖ mean(n, k) · Wₐ(64 + k, j) + bₐ(j), 0 ),
  where mean(n, ·) is the mean over the edges e with destination n of the messages
      msg(e, j) = ∑ₖ nf(src e, k) · Wₘ(k, j) + ∑ₖ ef(e, k) · Wₘ(64 + k, j) + bₘ(j)
  (zero for a node with no incoming edge). The kernel computes the messages and the update in two grid regions, each
  product split into its two 64-row halves, and scales a node's message sum by the reciprocal of its in-degree counted
  in integers; the reference multiplies concatenated operands by the whole 128-row weights and divides the sum by the
  in-degree counted in floats. On the extended reals a change of float format is the identity, a 128-term sum is its two
  64-term halves, the two degree counts are the same natural number, and s · (1 / d) = s / d for a positive real d while
  s · 0 = 0 for every s: no finiteness of the inputs is used.

  The three frames: the two kernels' are the generated frame certificates; the reference's is its run with the result
  dropped. The idealization rewrote nothing, so `preserves` is trivial. For `algebraic` the kernel's run names its
  result buffer's final contents (KRun, KHost: the function `KDefs.result` of the arguments), the reference's run names
  its own (the last stage of its operations), and Bridge proves the two functions equal.
-/
import proofs.«100682_j6528350290008_2_alg».proof.Defs
import proofs.«100682_j6528350290008_2_alg».proof.Proof.Gen.Kernel
import proofs.«100682_j6528350290008_2_alg».proof.Proof.Gen.Kernel.Skeleton
import proofs.«100682_j6528350290008_2_alg».proof.Proof.Gen.Kernel.Launch
import proofs.«100682_j6528350290008_2_alg».proof.Proof.Gen.Kernel.Points
import proofs.«100682_j6528350290008_2_alg».proof.Proof.Gen.Kernel.Frame
import proofs.«100682_j6528350290008_2_alg».proof.Proof.Gen.KernelIdeal
import proofs.«100682_j6528350290008_2_alg».proof.Proof.Gen.KernelIdeal.Skeleton
import proofs.«100682_j6528350290008_2_alg».proof.Proof.Gen.KernelIdeal.Launch
import proofs.«100682_j6528350290008_2_alg».proof.Proof.Gen.KernelIdeal.Points
import proofs.«100682_j6528350290008_2_alg».proof.Proof.Gen.KernelIdeal.Frame
import proofs.«100682_j6528350290008_2_alg».proof.Proof.Gen.ReferenceIdeal
import proofs.«100682_j6528350290008_2_alg».proof.Proof.Gen.Pre_finite_inputs
import proofs.«100682_j6528350290008_2_alg».proof.Proof.RefRunP
import proofs.«100682_j6528350290008_2_alg».proof.Proof.RefReadP
import proofs.«100682_j6528350290008_2_alg».proof.Proof.KRun
import proofs.«100682_j6528350290008_2_alg».proof.Proof.KHost
import proofs.«100682_j6528350290008_2_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both idealized programs run, and both result buffers end at
    `KDefs.result` of the arguments. -/
theorem algebraic : Cert.algebraic_KernelIdeal_ReferenceIdeal := by
  intro m ρ m' ρ' _ hagree
  refine ⟨fun c => Cert.KernelIdeal.KDefs.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KHost.W6_v29 m ρ c), (h c).2⟩)
      (Cert.KernelIdeal.KRun.run_named m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7⟩ := hagree c
    rw [Cert.ReferenceIdeal.ReadP.val_main_v31_eq, a0, a1, a2, a3, a4, a5, a6, a7]
    exact (Cert.Bridge.result_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
